-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩

abbrev nBuf : Space → Nat
  | .hbm => 38
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S1x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S128x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x128_S128x128 : S128x128.ShapeCasts S128x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S100000x128, .f32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S1700000x1, .f32⟩
  | .hbm, ⟨49, _⟩ => ⟨S1700000x128, .f32⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S128x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_cst : Ref sig .tc := ⟨.hbm, 58, rfl⟩
abbrev main_call0_v0 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call1_cst : Ref sig .tc := ⟨.hbm, 64, rfl⟩
abbrev main_call1_v0 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run, with its result named.

  The program is two pipelined regions among stretches of host operations. Every weakly fair execution terminates
  without a fault; the argument arrays end as launched, and the result array ends at what the second region's
  write-backs leave in it: the fold of the output window's flushed blocks over the region's entry contents.
-/
import proofs.«107790_j22746146799804_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array holds the second region's exit contents of its output window's array, and the arguments
    are unchanged. -/
theorem run_named : θ_run defs (onTc (τ := τ) (main (F := F))) ⟨m, fun _ => 0, ρ⟩ (fun r => ∀ c : Dev nD,
      r.2.mem ((c.tc : Thread nD τ).loc main_v26) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v26 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.GcnRun

end
-- ==== Proof.LibRowLayout.lean ====
/-
  Layout operations on matrices, read at a row and a column.

  Two matrices with the same rows set side by side read, at a column, the left one when the column is inside its width
  and the right one, the left width less, otherwise. Two vectors set end to end read the same way. A column vector
  (one entry per row) spread over the columns reads its row's entry at every column; a vector given a trailing unit
  axis reads its entry at the row. A scalar spread over any shape reads the scalar.
-/
import Idealize.ShloMosaic.Lib.Pipeline.Value
import Idealize.ShloMosaic.Lib.ValueIdx
import Idealize.ShloMosaic.Lib.ValueLayout

namespace Idealize.ShloMosaic.RowLayout

open Idealize.ShloMosaic.ValueIdx

variable {α : Type}

/-- Side by side along the columns: a column inside the left width reads the left matrix there. -/
theorem concat_cols_left {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin a)
    (hk : k'.val = k.val) :
    concatenate ⟨2, ![n, c]⟩ 1 [⟨⟨2, ![n, a]⟩, x₁⟩, ⟨⟨2, ![n, b]⟩, x₂⟩] h (ix2 r k) = x₁ (ix2 r k') :=
  concatenate_pair_apply_left 1 x₁ x₂ h (ix2 r k) rfl (ix2 r k') fun d => by
    match d with
    | ⟨0, _⟩ => rfl
    | ⟨1, _⟩ => exact hk

/-- Side by side along the columns: a column past the left width reads the right matrix, the left width less. -/
theorem concat_cols_right {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin b)
    (hk : k'.val + a = k.val) :
    concatenate ⟨2, ![n, c]⟩ 1 [⟨⟨2, ![n, a]⟩, x₁⟩, ⟨⟨2, ![n, b]⟩, x₂⟩] h (ix2 r k) = x₂ (ix2 r k') :=
  concatenate_pair_apply_right 1 x₁ x₂ h (ix2 r k) rfl rfl (ix2 r k') (fun d hd => by
    match d with
    | ⟨0, _⟩ => rfl
    | ⟨1, _⟩ => exact absurd rfl hd) hk

/-- End to end: a position inside the first length reads the first vector there. -/
theorem concat_vec_left {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin a) (hk : k'.val = k.val) :
    concatenate ⟨1, ![c]⟩ 0 [⟨⟨1, ![a]⟩, x₁⟩, ⟨⟨1, ![b]⟩, x₂⟩] h (ix1 k) = x₁ (ix1 k') :=
  concatenate_pair_apply_left 0 x₁ x₂ h (ix1 k) rfl (ix1 k') fun d => by
    match d with
    | ⟨0, _⟩ => exact hk

/-- End to end: a position past the first length reads the second vector, the first length less. -/
theorem concat_vec_right {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin b) (hk : k'.val + a = k.val) :
    concatenate ⟨1, ![c]⟩ 0 [⟨⟨1, ![a]⟩, x₁⟩, ⟨⟨1, ![b]⟩, x₂⟩] h (ix1 k) = x₂ (ix1 k') :=
  concatenate_pair_apply_right 0 x₁ x₂ h (ix1 k) rfl rfl (ix1 k') (fun d hd => by
    match d with
    | ⟨0, _⟩ => exact absurd rfl hd) hk

/-- A column vector spread over `b` columns reads, at `(p, c)`, its entry of row `p`. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector given a trailing unit axis reads, at `(p, u)`, its entry `p`. -/
theorem shapeCast_a_a1_apply {a : Nat} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A scalar spread over any shape reads the scalar everywhere. -/
theorem spread_scalar {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- Two pieces joined along an axis, as a function of the two pieces: the library's `concatenate` of the two-element list of
    the pieces paired with their shapes. -/
def concat2 (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concat2_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ x₁ x₂ h := rfl

end Idealize.ShloMosaic.RowLayout
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibRowsCols.lean ====
/-
  A matrix product of rows by columns, read at a row and a column.

  When the left operand's columns are contracted against the right operand's rows, the product at `(a, c)` — on the
  TensorCore into a zero accumulator, or the host's `dot_general` — is, at the ideal values, the sum over the shared
  coordinate `k` of the left operand at `(a, k)` times the right operand at `(k, c)`.
-/
import Idealize.ShloMosaic.PureOps.Ideal.Laws
import Idealize.ShloMosaic.Lib.ValueIdx
import proofs.«107790_j22746146799804_2_alg».proof.Proof.LibContract

namespace Idealize.ShloMosaic.RowsCols

open Idealize.ShloMosaic.ValueIdx

variable {M K N : Nat} (d : DotDims ⟨2, ![M, K]⟩ ⟨2, ![K, N]⟩ ⟨2, ![M, N]⟩)
  (hcl : d.lhsContracting = [1]) (hcr : d.rhsContracting = [0])
  (hrank : d.contr.rank = 1) (hsize : d.contr.size ⟨0, by omega⟩ = K)
  (hl0 : ∀ (j : (⟨2, ![M, N]⟩ : Shape).Idx) (q : d.contr.Idx), (d.lhsIdx j q 0).val = (j 0).val)
  (hr1 : ∀ (j : (⟨2, ![M, N]⟩ : Shape).Idx) (q : d.contr.Idx), (d.rhsIdx j q 1).val = (j 1).val)

include hcl hl0 in
/-- The left operand's index at output `(a, c)` and shared coordinate `k` is `(a, k)`. -/
theorem lhsIdx_eq (a : Fin M) (c : Fin N) (k : Fin K) :
    d.lhsIdx (ix2 a c) ((contrEquiv1 d K hrank hsize).symm k) = ix2 a k := by
  have hk := contrEquiv1_symm_val d K hrank hsize k
  funext x
  refine Fin.ext ?_
  match x with
  | ⟨0, _⟩ => exact hl0 _ _
  | ⟨1, _⟩ => exact (d.lhsIdx_val_of_single hcl _ _).trans hk

include hcr hr1 in
/-- The right operand's index at output `(a, c)` and shared coordinate `k` is `(k, c)`. -/
theorem rhsIdx_eq (a : Fin M) (c : Fin N) (k : Fin K) :
    d.rhsIdx (ix2 a c) ((contrEquiv1 d K hrank hsize).symm k) = ix2 k c := by
  have hk := contrEquiv1_symm_val d K hrank hsize k
  funext x
  refine Fin.ext ?_
  match x with
  | ⟨0, _⟩ => exact (d.rhsIdx_val_of_single hcr _ _).trans hk
  | ⟨1, _⟩ => exact hr1 _ _

include hcl hcr hrank hsize hl0 hr1 in
/-- The TensorCore product into the zero accumulator at `(a, c)`. -/
theorem matmul_zero_apply {φ₁ φ₂ : FTy} (prec : Option ContractPrecision)
    (lhs : FVec Ideal ⟨2, ![M, K]⟩ φ₁) (rhs : FVec Ideal ⟨2, ![K, N]⟩ φ₂) (a : Fin M) (c : Fin N) :
    FloatOps.matmul d prec lhs rhs (constant ⟨2, ![M, N]⟩ .f32 0x00000000#32) (ix2 a c) = ∑ k : Fin K, lhs (ix2 a k) * rhs (ix2 k c) :=
  ContractSingle.matmul_zero_single d prec K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

include hcl hcr hrank hsize hl0 hr1 in
/-- The host's `dot_general` at `(a, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (a : Fin M) (c : Fin N) :
    FloatOps.dotGeneral d prec sched lhs rhs (ix2 a c) = ∑ k : Fin K, lhs (ix2 a k) * rhs (ix2 k c) :=
  ContractSingle.dotGeneral_single d prec sched K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

end Idealize.ShloMosaic.RowsCols
-- ==== Proof.Body.lean ====
/-
  The two kernel bodies' arithmetic, read at a row and a column of the block.

  The first body multiplies a block of rows by the weight matrix and scales row `p` by the row's own factor: at
  `(p, q)` it is `(∑ k, x (p, k) · w (k, q)) · s (p)`. The second scales row `p` of its block, adds the bias row, clips
  below at zero, multiplies by the second weight matrix, adds the residual block and clips again: at `(p, q)` it is
  `max (∑ k, max (a (p, k) · s (p) + b (k)) 0 · w (k, q) + r (p, q)) 0`. Format changes are the identity on the extended reals.
-/
import proofs.«107790_j22746146799804_2_alg».proof.Proof.Gen.KernelIdeal.Skeleton
import proofs.«107790_j22746146799804_2_alg».proof.Proof.LibRowLayout
import proofs.«107790_j22746146799804_2_alg».proof.Proof.LibRowsCols
import Idealize.ShloMosaic.Lib.ValueLayout

noncomputable section

namespace Cert.KernelIdeal.GcnBody

open Cert.KernelIdeal Cert.KernelIdeal.Gen Idealize.ShloMosaic Idealize.ShloMosaic.ValueIdx

/-- The blocks' matrix product: rows of 128 against a 128 by 128 matrix. -/
abbrev dotK : DotDims S5000x128 S128x128 S5000x128 := dot_S5000x128_S128x128_S5000x128_1_0_0_1_n_n

theorem dot_l0 (j : S5000x128.Idx) (q : dotK.contr.Idx) : (dotK.lhsIdx j q 0).val = (j 0).val := by
  unfold DotDims.lhsIdx
  rw [dif_neg (show ¬(0 : Fin S5000x128.rank) ∈ dotK.lhsBatch by decide),
    dif_pos (show (0 : Fin S5000x128.rank) ∈ dotK.lhsNonContracting by decide)]
  rfl

theorem dot_r1 (j : S5000x128.Idx) (q : dotK.contr.Idx) : (dotK.rhsIdx j q 1).val = (j 1).val := by
  unfold DotDims.rhsIdx
  rw [dif_neg (show ¬(1 : Fin S128x128.rank) ∈ dotK.rhsBatch by decide),
    dif_pos (show (1 : Fin S128x128.rank) ∈ dotK.rhsNonContracting by decide)]
  rfl

/-- The product into the zero accumulator at `(p, q)`: the sum over the shared coordinate. -/
theorem matmul_apply {φ₁ φ₂ : FTy} (l : FVec Ideal S5000x128 φ₁) (r : FVec Ideal S128x128 φ₂) (p : Fin 5000) (q : Fin 128) :
    matmul dotK none l r (constant S5000x128 .f32 0x00000000#32) (ix2 p q) = ∑ k : Fin 128, l (ix2 p k) * r (ix2 k q) :=
  RowsCols.matmul_zero_apply dotK rfl rfl rfl rfl dot_l0 dot_r1 none l r p q

/-- The zero the second body clips at. -/
abbrev zero : EReal := Ideal.ofBits .f32 0x00000000#32

/-- A column of per-row factors spread over the columns reads the row's factor. -/
theorem spread_col (v : FVec Ideal S5000x1 .f32) (p : Fin 5000) (q : Fin 128) :
    broadcastTo S5000x128 (shapeCast S5000x1 v shapeCasts_S5000x1_S5000x1) broadcasts_S5000x1_S5000x128 (ix2 p q)
      = v (ix2 p (0 : Fin 1)) := by
  rw [shapeCast_self]
  exact RowLayout.broadcastTo_a1_ab_apply v broadcasts_S5000x1_S5000x128 p q

/-- The first body at `(p, q)`. -/
theorem pay0_apply (x : FVec Ideal S5000x128 .f32) (w : FVec Ideal S128x128 .f32) (s : FVec Ideal S5000x1 .f32)
    (p : Fin 5000) (q : Fin 128) :
    k0_pay1 (F := Ideal) x w s (ix2 p q) = (∑ k : Fin 128, x (ix2 p k) * w (ix2 k q)) * s (ix2 p (0 : Fin 1)) := by
  unfold k0_pay1
  refine (mulf_apply _ _ _).trans ?_
  rw [spread_col]
  exact congrArg (· * s (ix2 p (0 : Fin 1))) (matmul_apply _ _ p q)

/-- The second body's clipped, biased, scaled block at `(p, k)`. -/
theorem act_apply (a : FVec Ideal S5000x128 .f32) (s : FVec Ideal S5000x1 .f32) (b : FVec Ideal S1x128 .f32)
    (p : Fin 5000) (k : Fin 128) :
    maximumf (addf (mulf (shapeCast S5000x128 a shapeCasts_S5000x128_S5000x128)
        (broadcastTo S5000x128 (shapeCast S5000x1 s shapeCasts_S5000x1_S5000x1) broadcasts_S5000x1_S5000x128))
        (broadcastTo S5000x128 (shapeCast S1x128 b shapeCasts_S1x128_S1x128) broadcasts_S1x128_S5000x128))
      (broadcast S5000x128 (Scalar.ofBits (F := Ideal) .f32 0x00000000#32)) (ix2 p k)
      = max (a (ix2 p k) * s (ix2 p (0 : Fin 1)) + b (ix2 (0 : Fin 1) k)) zero := by
  refine (maximumf_apply _ _ _).trans ?_
  refine congrArg₂ max ?_ rfl
  refine (addf_apply _ _ _).trans ?_
  refine congrArg₂ (· + ·) ?_ ?_
  · refine (mulf_apply _ _ _).trans ?_
    rw [spread_col, shapeCast_self]
  · rw [shapeCast_self]
    exact broadcastTo_1b_ab_apply b broadcasts_S1x128_S5000x128 p k

/-- The second body at `(p, q)`. -/
theorem pay1_apply (a : FVec Ideal S5000x128 .f32) (s : FVec Ideal S5000x1 .f32) (b : FVec Ideal S1x128 .f32)
    (w : FVec Ideal S128x128 .f32) (r : FVec Ideal S5000x128 .f32) (p : Fin 5000) (q : Fin 128) :
    k1_pay1 (F := Ideal) a s b w r (ix2 p q)
      = max ((∑ k : Fin 128, max (a (ix2 p k) * s (ix2 p (0 : Fin 1)) + b (ix2 (0 : Fin 1) k)) zero * w (ix2 k q))
          + r (ix2 p q)) zero := by
  unfold k1_pay1
  refine (maximumf_apply _ _ _).trans ?_
  refine congrArg₂ max ?_ rfl
  refine (addf_apply _ _ _).trans ?_
  refine congrArg (· + r (ix2 p q)) ?_
  refine (matmul_apply _ _ p q).trans ?_
  refine Finset.sum_congr rfl fun k _ => ?_
  refine congrArg₂ (· * ·) ?_ ?_
  · exact act_apply a s b p k
  · show shapeCast S128x128 w shapeCasts_S128x128_S128x128 (ix2 k q) = w (ix2 k q)
    rw [shapeCast_self]

end Cert.KernelIdeal.GcnBody

end
-- ==== Proof.Region0.lean ====
/-
  The first region's output array, whole.

  The grid's point `t` holds rows `5000 t … 5000 t + 4999` of the row arrays (the inputs' rows, the per-row factors,
  the output's rows) and the whole weight matrix. What the point writes back is the body's arithmetic of those blocks,
  which is the same function of the whole arrays read at the block's rows; the twenty blocks tile the output array, so
  after the region it holds, at `(r, c)`, `(∑ k, x (r, k) · w (k, c)) · s (r)`.
-/
import proofs.«107790_j22746146799804_2_alg».proof.Proof.Gen.KernelIdeal.Frame
import proofs.«107790_j22746146799804_2_alg».proof.Proof.Body

set_option maxRecDepth 16384

noncomputable section

namespace Cert.KernelIdeal.GcnRegion0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows times the weight matrix, each row scaled by its own factor. -/
def scaledRows (x : S100000x128.Idx → EReal) (w : S128x128.Idx → EReal) (s : S100000x1.Idx → EReal) :
    S100000x128.Idx → EReal :=
  fun i => (∑ k : Fin 128, x (ix2 (i 0 : Fin 100000) k) * w (ix2 k (i 1 : Fin 128))) * s (ix2 (i 0 : Fin 100000) (0 : Fin 1))

theorem scaledRows_apply (x : S100000x128.Idx → EReal) (w : S128x128.Idx → EReal) (s : S100000x1.Idx → EReal)
    (r : Fin 100000) (q : Fin 128) :
    scaledRows x w s (ix2 r q) = (∑ k : Fin 128, x (ix2 r k) * w (ix2 k q)) * s (ix2 r (0 : Fin 1)) := rfl

/-- The block index maps over the grid: the row windows are at block row `t`, the matrix window at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the input rows' block at point `t` is row `5000 t + p` of the array. -/
theorem blk_rows (c : Dev nD) (t : Fin cfg0.N) (p : Fin 5000) (k : Fin 128) (r : Fin 100000)
    (hr : r.val = t.val * 5000 + p.val) :
    iblk0 V c 0 t (ix2 p k) = V c main_arg0 (ix2 r k) := by
  obtain ⟨e0, e1, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight matrix's block is the whole matrix at every point. -/
theorem blk_weights (c : Dev nD) (t : Fin cfg0.N) (k : Fin 128) (q : Fin 128) :
    iblk0 V c 1 t (ix2 k q) = V c main_arg2 (ix2 k q) := by
  obtain ⟨-, -, e2, e3, -⟩ := idx_facts t
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry `p` of the factors' block at point `t` is entry `5000 t + p` of the column. -/
theorem blk_factors (c : Dev nD) (t : Fin cfg0.N) (p : Fin 5000) (r : Fin 100000) (hr : r.val = t.val * 5000 + p.val) :
    iblk0 V c 2 t (ix2 p (0 : Fin 1)) = V c main_v11 (ix2 r (0 : Fin 1)) := by
  obtain ⟨-, -, -, -, e4, e5, -⟩ := idx_facts t
  show V c main_v11 (((cfg0.win 2).blk t).view.emb (ix2 p (0 : Fin 1))) = V c main_v11 (ix2 r (0 : Fin 1))
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- What point `t` writes back is block `t` of the scaled product of the arrays as the region finds them. -/
theorem flushed_eq (c : Dev nD) (t : Fin cfg0.N) :
    (dat0 V c).flushed 3 t
      = ((cfg0.win 3).blk t).view.read (Elt Ideal) (scaledRows (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  have ht : t.val < 20 := by have h1 := t.isLt; have h2 : cfg0.N = 20 := N_0; omega
  obtain ⟨-, -, -, -, -, -, e6, e7⟩ := idx_facts t
  obtain ⟨r, hr⟩ : ∃ r : Fin 100000, r.val = t.val * 5000 + p.val := ⟨⟨t.val * 5000 + p.val, by omega⟩, rfl⟩
  have hemb : ((cfg0.win 3).blk t).view.emb (ix2 p q) = ix2 r q :=
    funext fun a => Fin.ext (by
      match a with
      | ⟨0, _⟩ => show win0_3.index t (0 : Fin 2) * 5000 + 1 * p.val = r.val; omega
      | ⟨1, _⟩ => show win0_3.index t (1 : Fin 2) * 128 + 1 * q.val = q.val; omega)
  show k0_pay1 (iblk0 V c 0 t) (iblk0 V c 1 t) (iblk0 V c 2 t) (ix2 p q)
    = scaledRows (V c main_arg0) (V c main_arg2) (V c main_v11) (((cfg0.win 3).blk t).view.emb (ix2 p q))
  rw [hemb, scaledRows_apply]
  refine (GcnBody.pay0_apply _ _ _ p q).trans ?_
  rw [blk_factors V c t p r hr]
  refine congrArg (· * _) (Finset.sum_congr rfl fun k _ => ?_)
  rw [blk_rows V c t p k r hr, blk_weights V c t k q]

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v12).slice (win0_3.rect t)).set ↔ _
  rw [View.set_slice_whole, Rect.mem_set_unit]
  exact Iff.rfl

/-- Every row of the array is in the block of the point its row number divided by 5000 names. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, htv⟩ : ∃ t : Fin cfg0.N, t.val = (i 0).val / 5000 := ⟨⟨(i 0).val / 5000, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after the region: the scaled product of the arrays as the region finds them. -/
theorem final (c : Dev nD) :
    (dat0 V c).arrAt 3 cfg0.N = scaledRows (V c main_arg0) (V c main_arg2) (V c main_v11) :=
  (dat0 V c).arrAt_eq_of_cover 3 _ (fun t _ => flushed_eq V c t) cover

end Cert.KernelIdeal.GcnRegion0

end
-- ==== Proof.Region1.lean ====
/-
  The second region's output array, whole.

  The grid's point `t` holds rows `5000 t … 5000 t + 4999` of the row arrays (the aggregate's rows, the residual's rows,
  the per-row factors, the output's rows), the whole bias row and the whole weight matrix. What the point writes back is
  the body's arithmetic of those blocks, the same function of the whole arrays read at the block's rows; the twenty blocks
  tile the output array, so after the region it holds, at `(r, c)`,
  `max (∑ k, max (a (r, k) · s (r) + b (k)) 0 · w (k, c) + x (r, c)) 0`.
-/
import proofs.«107790_j22746146799804_2_alg».proof.Proof.Gen.KernelIdeal.Frame
import proofs.«107790_j22746146799804_2_alg».proof.Proof.Body

set_option maxRecDepth 16384

noncomputable section

namespace Cert.KernelIdeal.GcnRegion1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Scale the aggregate's rows, add the bias, clip, apply the weights, add the residual, clip. -/
def finishRows (a x : S100000x128.Idx → EReal) (b : S1x128.Idx → EReal) (w : S128x128.Idx → EReal)
    (s : S100000x1.Idx → EReal) : S100000x128.Idx → EReal :=
  fun i => max ((∑ k : Fin 128, max (a (ix2 (i 0 : Fin 100000) k) * s (ix2 (i 0 : Fin 100000) (0 : Fin 1))
      + b (ix2 (0 : Fin 1) k)) GcnBody.zero * w (ix2 k (i 1 : Fin 128))) + x (ix2 (i 0 : Fin 100000) (i 1 : Fin 128))) GcnBody.zero

theorem finishRows_apply (a x : S100000x128.Idx → EReal) (b : S1x128.Idx → EReal) (w : S128x128.Idx → EReal)
    (s : S100000x1.Idx → EReal) (r : Fin 100000) (q : Fin 128) :
    finishRows a x b w s (ix2 r q)
      = max ((∑ k : Fin 128, max (a (ix2 r k) * s (ix2 r (0 : Fin 1)) + b (ix2 (0 : Fin 1) k)) GcnBody.zero * w (ix2 k q))
          + x (ix2 r q)) GcnBody.zero := rfl

/-- The block index maps over the grid: the row windows are at block row `t`, the bias and matrix windows at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of the aggregate's block at point `t` is row `5000 t + p` of the array. -/
theorem blk_agg (c : Dev nD) (t : Fin cfg1.N) (p : Fin 5000) (k : Fin 128) (r : Fin 100000)
    (hr : r.val = t.val * 5000 + p.val) :
    iblk1 V c 0 t (ix2 p k) = V c main_v23 (ix2 r k) := by
  obtain ⟨e0, e1, -⟩ := idx_facts t
  show V c main_v23 (((cfg1.win 0).blk t).view.emb (ix2 p k)) = V c main_v23 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row `p` of the residual's block at point `t` is row `5000 t + p` of the array. -/
theorem blk_res (c : Dev nD) (t : Fin cfg1.N) (p : Fin 5000) (k : Fin 128) (r : Fin 100000)
    (hr : r.val = t.val * 5000 + p.val) :
    iblk1 V c 1 t (ix2 p k) = V c main_arg0 (ix2 r k) := by
  obtain ⟨-, -, e0, e1, -⟩ := idx_facts t
  show V c main_arg0 (((cfg1.win 1).blk t).view.emb (ix2 p k)) = V c main_arg0 (ix2 r k)
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The bias row's block is the whole row at every point. -/
theorem blk_bias (c : Dev nD) (t : Fin cfg1.N) (k : Fin 128) :
    iblk1 V c 2 t (ix2 (0 : Fin 1) k) = V c main_v25 (ix2 (0 : Fin 1) k) := by
  obtain ⟨-, -, -, -, e0, e1, -⟩ := idx_facts t
  show V c main_v25 (((cfg1.win 2).blk t).view.emb (ix2 (0 : Fin 1) k)) = V c main_v25 (ix2 (0 : Fin 1) k)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- The weight matrix's block is the whole matrix at every point. -/
theorem blk_weights (c : Dev nD) (t : Fin cfg1.N) (k : Fin 128) (q : Fin 128) :
    iblk1 V c 3 t (ix2 k q) = V c main_v24 (ix2 k q) := by
  obtain ⟨-, -, -, -, -, -, e0, e1, -⟩ := idx_facts t
  show V c main_v24 (((cfg1.win 3).blk t).view.emb (ix2 k q)) = V c main_v24 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Entry `p` of the factors' block at point `t` is entry `5000 t + p` of the column. -/
theorem blk_factors (c : Dev nD) (t : Fin cfg1.N) (p : Fin 5000) (r : Fin 100000) (hr : r.val = t.val * 5000 + p.val) :
    iblk1 V c 4 t (ix2 p (0 : Fin 1)) = V c main_v11 (ix2 r (0 : Fin 1)) := by
  obtain ⟨-, -, -, -, -, -, -, -, e0, e1, -⟩ := idx_facts t
  show V c main_v11 (((cfg1.win 4).blk t).view.emb (ix2 p (0 : Fin 1))) = V c main_v11 (ix2 r (0 : Fin 1))
  refine congrArg _ (funext fun a => Fin.ext ?_)
  match a with
  | ⟨0, _⟩ => show win1_4.index t (0 : Fin 2) * 5000 + 1 * p.val = r.val; omega
  | ⟨1, _⟩ => show win1_4.index t (1 : Fin 2) * 1 + 1 * 0 = 0; omega

/-- What point `t` writes back is block `t` of the finished rows of the arrays as the region finds them. -/
theorem flushed_eq (c : Dev nD) (t : Fin cfg1.N) :
    (dat1 V c).flushed 5 t
      = ((cfg1.win 5).blk t).view.read (Elt Ideal)
          (finishRows (V c main_v23) (V c main_arg0) (V c main_v25) (V c main_v24) (V c main_v11)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S5000x1) hz,
    View.ld_unit_zero (S := S1x128) hz]
  funext j
  obtain ⟨p, q, rfl⟩ : ∃ (p : Fin 5000) (q : Fin 128), j = ix2 p q := ⟨j 0, j 1, eq_ix2 j⟩
  have ht : t.val < 20 := by have h1 := t.isLt; have h2 : cfg1.N = 20 := N_1; omega
  obtain ⟨-, -, -, -, -, -, -, -, -, -, e6, e7⟩ := idx_facts t
  obtain ⟨r, hr⟩ : ∃ r : Fin 100000, r.val = t.val * 5000 + p.val := ⟨⟨t.val * 5000 + p.val, by omega⟩, rfl⟩
  have hemb : ((cfg1.win 5).blk t).view.emb (ix2 p q) = ix2 r q :=
    funext fun a => Fin.ext (by
      match a with
      | ⟨0, _⟩ => show win1_5.index t (0 : Fin 2) * 5000 + 1 * p.val = r.val; omega
      | ⟨1, _⟩ => show win1_5.index t (1 : Fin 2) * 128 + 1 * q.val = q.val; omega)
  show k1_pay1 (iblk1 V c 0 t) (iblk1 V c 4 t) (iblk1 V c 2 t) (iblk1 V c 3 t) (iblk1 V c 1 t) (ix2 p q)
    = finishRows (V c main_v23) (V c main_arg0) (V c main_v25) (V c main_v24) (V c main_v11)
        (((cfg1.win 5).blk t).view.emb (ix2 p q))
  rw [hemb, finishRows_apply]
  refine (GcnBody.pay1_apply _ _ _ _ _ p q).trans ?_
  rw [blk_res V c t p q r hr, blk_factors V c t p r hr]
  refine congrArg (fun z => max (z + _) _) (Finset.sum_congr rfl fun k _ => ?_)
  rw [blk_agg V c t p k r hr, blk_bias V c t k, blk_weights V c t k q]

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v26).slice (win1_5.rect t)).set ↔ _
  rw [View.set_slice_whole, Rect.mem_set_unit]
  exact Iff.rfl

/-- Every row of the array is in the block of the point its row number divided by 5000 names. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, htv⟩ : ∃ t : Fin cfg1.N, t.val = (i 0).val / 5000 := ⟨⟨(i 0).val / 5000, by rw [hN]; omega⟩, rfl⟩
  obtain ⟨-, -, -, -, -, -, -, -, -, -, e6, e7⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The output array after the region: the finished rows of the arrays as the region finds them. -/
theorem final (c : Dev nD) :
    (dat1 V c).arrAt 5 cfg1.N
      = finishRows (V c main_v23) (V c main_arg0) (V c main_v25) (V c main_v24) (V c main_v11) :=
  (dat1 V c).arrAt_eq_of_cover 5 _ (fun t _ => flushed_eq V c t) cover

end Cert.KernelIdeal.GcnRegion1

end
-- ==== Proof.HostK.lean ====
/-
  The idealized kernel's buffers at the boundaries of its two regions, as whole-array terms of the argument arrays.

  Before the first region the host slices the two rows of the edge list, counts for every node the edges into it, adds one,
  takes the inverse square root and turns the result into a column. The first region then leaves the scaled product of the
  features, the weights and that column. Between the regions the host takes the scaled product's rows at the (wrapped)
  sources, accumulates them at the targets over a zero array, adds the scaled product itself, transposes the second weight
  matrix and turns the bias into a row. The second region finishes the rows. So the result array is one term of the
  argument arrays.
-/
import proofs.«107790_j22746146799804_2_alg».proof.Proof.Gen.KernelIdeal.Frame
import proofs.«107790_j22746146799804_2_alg».proof.Proof.KernelRun
import proofs.«107790_j22746146799804_2_alg».proof.Proof.Region0
import proofs.«107790_j22746146799804_2_alg».proof.Proof.Region1
import Idealize.ShloMosaic.Lib.StableHlo.Run
import Idealize.ShloMosaic.PureOps.Ideal

set_option maxRecDepth 16384

noncomputable section

namespace Cert.KernelIdeal.GcnHost

open Cert.KernelIdeal Cert.KernelIdeal.Gen
open Idealize.ShloMosaic Idealize.ShloMosaic.TcCoe Idealize.ShloMosaic.Tactic Idealize.ShloMosaic.StableHlo
open Idealize.SL Idealize.SL.Sem

/-- The sources' row of the edge list. -/
def srcRow (ei : S2x1600000.Idx → BitVec 32) : S1600000.Idx → BitVec 32 :=
  shapeCast S1600000 (extractStridedSlice S1x1600000 ![0, 0] ei slices_S2x1600000_S1x1600000_0_0) shapeCasts_S1x1600000_S1600000
/-- The targets' row of the edge list. -/
def dstRow (ei : S2x1600000.Idx → BitVec 32) : S1600000.Idx → BitVec 32 :=
  shapeCast S1600000 (extractStridedSlice S1x1600000 ![1, 0] ei slices_S2x1600000_S1x1600000_1_0) shapeCasts_S1x1600000_S1600000

/-- The degrees: the count of edges into each node, and one. -/
def degVec (ei : S2x1600000.Idx → BitVec 32) : S100000.Idx → EReal :=
  addf (F := Ideal)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (dstRow ei))
      (broadcastInDim S1600000 ![] bcast_S_S1600000 (constant (F := Ideal) S_ .f32 0x3F800000#32)))
    (broadcastInDim S100000 ![] bcast_S_S100000 (constant (F := Ideal) S_ .f32 0x3F800000#32))

/-- The inverse square roots of the degrees, as a column. -/
def dinvCol (ei : S2x1600000.Idx → BitVec 32) : S100000x1.Idx → EReal :=
  shapeCast S100000x1 (Host.rsqrt (F := Ideal) (φ := .f32) (degVec ei)) shapeCasts_S100000_S100000x1

/-- The sources, a negative one wrapped round by the node count. -/
def wrappedSrc (ei : S2x1600000.Idx → BitVec 32) : S1600000.Idx → BitVec 32 :=
  select (cmpi .slt (srcRow ei) (broadcastInDim S1600000 ![] bcast_S_S1600000 (constantI S_ 32 0#32)))
    (addi (srcRow ei) (broadcastInDim S1600000 ![] bcast_S_S1600000 (constantI S_ 32 100000#32))) (srcRow ei)

/-- The rows of `hs` taken at the sources, accumulated at the targets over zero, plus `hs` itself. -/
def aggRaw (hs : S100000x128.Idx → EReal) (ei : S2x1600000.Idx → BitVec 32) : S100000x128.Idx → EReal :=
  addf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dstRow ei))
      (Host.gather gather_S100000x128_S1600000x1_S1600000x128_1_0_n_n_0_1_1128 hs
        (broadcastInDim S1600000x1 ![0] bcast_S1600000_S1600000x1_0 (wrappedSrc ei))))
    hs

variable (m : (ℓ : Loc nD τ sig) → Buf (Elt Ideal) ℓ) (ρ : Dev nD → PrngReg)

/-! ### At the first region's entry -/

theorem W1_v1 (c : Dev nD) : W1 m ρ c (Proc.devRef .tc main_v1) = srcRow (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstRow (m ((c : Thread nD τ).loc main_arg1)) := by
  show StableHlo.after hostOps0 (W0 m ρ c) (Proc.devRef .tc main_v3) = _
  after_results
  rfl

theorem W1_v11 (c : Dev nD) : W1 m ρ c (Proc.devRef .tc main_v11) = dinvCol (m ((c : Thread nD τ).loc main_arg1)) := by
  show StableHlo.after hostOps0 (W0 m ρ c) (Proc.devRef .tc main_v11) = _
  after_results
  rfl

theorem W1_arg (c : Dev nD) (b : Ref sig .tc) (hb : b = main_arg0 ∨ b = main_arg2 ∨ b = main_arg3 ∨ b = main_arg4) :
    W1 m ρ c (Proc.devRef .tc b) = m ((c : Thread nD τ).loc b) := by
  show StableHlo.after hostOps0 (W0 m ρ c) (Proc.devRef .tc b) = _
  rcases hb with rfl | rfl | rfl | rfl <;> (after_results <;> rfl)

/-! ### At the first region's exit -/

theorem W2_v1 (c : Dev nD) : W2 m ρ c (Proc.devRef .tc main_v1) = srcRow (m ((c : Thread nD τ).loc main_arg1)) :=
  (W2_of_ne m ρ c main_v1 (by decide)).trans (W1_v1 m ρ c)

theorem W2_v3 (c : Dev nD) : W2 m ρ c (Proc.devRef .tc main_v3) = dstRow (m ((c : Thread nD τ).loc main_arg1)) :=
  (W2_of_ne m ρ c main_v3 (by decide)).trans (W1_v3 m ρ c)

theorem W2_v11 (c : Dev nD) : W2 m ρ c (Proc.devRef .tc main_v11) = dinvCol (m ((c : Thread nD τ).loc main_arg1)) :=
  ((W2_arr m ρ c 2).trans (((dat0 (V1 m ρ) c).arrAt_in 2 rfl _).trans (A_eq0 (V1 m ρ) c 2))).trans (W1_v11 m ρ c)

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans
    (W1_arg m ρ c main_arg0 (.inl rfl))

theorem W2_arg3 (c : Dev nD) : W2 m ρ c (Proc.devRef .tc main_arg3) = m ((c : Thread nD τ).loc main_arg3) :=
  (W2_of_ne m ρ c main_arg3 (by decide)).trans (W1_arg m ρ c main_arg3 (.inr (.inr (.inl rfl))))

theorem W2_arg4 (c : Dev nD) : W2 m ρ c (Proc.devRef .tc main_arg4) = m ((c : Thread nD τ).loc main_arg4) :=
  (W2_of_ne m ρ c main_arg4 (by decide)).trans (W1_arg m ρ c main_arg4 (.inr (.inr (.inr rfl))))

/-- The first region's output: the features times the weights, each row scaled by its inverse-root degree. -/
theorem W2_v12 (c : Dev nD) :
    W2 m ρ c (Proc.devRef .tc main_v12)
      = GcnRegion0.scaledRows (m ((c : Thread nD τ).loc main_arg0)) (m ((c : Thread nD τ).loc main_arg2))
          (dinvCol (m ((c : Thread nD τ).loc main_arg1))) := by
  refine (W2_arr m ρ c 3).trans ?_
  refine (GcnRegion0.final (V1 m ρ) c).trans ?_
  show GcnRegion0.scaledRows (W1 m ρ c (Proc.devRef .tc main_arg0)) (W1 m ρ c (Proc.devRef .tc main_arg2))
    (W1 m ρ c (Proc.devRef .tc main_v11)) = _
  rw [W1_arg m ρ c main_arg0 (.inl rfl), W1_arg m ρ c main_arg2 (.inr (.inl rfl)), W1_v11]

/-! ### At the second region's entry -/

theorem W3_v23 (c : Dev nD) :
    W3 m ρ c (Proc.devRef .tc main_v23)
      = aggRaw (GcnRegion0.scaledRows (m ((c : Thread nD τ).loc main_arg0)) (m ((c : Thread nD τ).loc main_arg2))
          (dinvCol (m ((c : Thread nD τ).loc main_arg1)))) (m ((c : Thread nD τ).loc main_arg1)) := by
  show StableHlo.after hostOps1 (W2 m ρ c) (Proc.devRef .tc main_v23) = _
  after_results
  rw [W2_v1, W2_v3, W2_v12]
  rfl

theorem W3_v25 (c : Dev nD) :
    W3 m ρ c (Proc.devRef .tc main_v25) = shapeCast S1x128 (m ((c : Thread nD τ).loc main_arg3)) shapeCasts_S128_S1x128 := by
  show StableHlo.after hostOps1 (W2 m ρ c) (Proc.devRef .tc main_v25) = _
  after_results
  rw [W2_arg3]
  rfl

theorem W3_v24 (c : Dev nD) :
    W3 m ρ c (Proc.devRef .tc main_v24)
      = transpose S128x128 [1, 0] (m ((c : Thread nD τ).loc main_arg4)) transposes_S128x128_S128x128_1_0 := by
  show StableHlo.after hostOps1 (W2 m ρ c) (Proc.devRef .tc main_v24) = _
  after_results
  rw [W2_arg4]

theorem W3_v11 (c : Dev nD) : W3 m ρ c (Proc.devRef .tc main_v11) = dinvCol (m ((c : Thread nD τ).loc main_arg1)) := by
  show StableHlo.after hostOps1 (W2 m ρ c) (Proc.devRef .tc main_v11) = _
  after_results <;> exact W2_v11 m ρ c

theorem W3_arg0 (c : Dev nD) : W3 m ρ c (Proc.devRef .tc main_arg0) = m ((c : Thread nD τ).loc main_arg0) := by
  show StableHlo.after hostOps1 (W2 m ρ c) (Proc.devRef .tc main_arg0) = _
  after_results <;> exact W2_arg0 m ρ c

/-! ### The result array -/

/-- The kernel's result as one term of the argument arrays. -/
def result (x : S100000x128.Idx → EReal) (ei : S2x1600000.Idx → BitVec 32) (wg : S128x128.Idx → EReal)
    (b : S128.Idx → EReal) (wl : S128x128.Idx → EReal) : S100000x128.Idx → EReal :=
  GcnRegion1.finishRows (aggRaw (GcnRegion0.scaledRows x wg (dinvCol ei)) ei) x
    (shapeCast S1x128 b shapeCasts_S128_S1x128) (transpose S128x128 [1, 0] wl transposes_S128x128_S128x128_1_0) (dinvCol ei)

/-- What the second region leaves in the result array. -/
theorem result_eq (c : Dev nD) :
    (dat1 (V3 m ρ) c).arrAt 5 cfg1.N
      = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (GcnRegion1.final (V3 m ρ) c).trans ?_
  show GcnRegion1.finishRows (W3 m ρ c (Proc.devRef .tc main_v23)) (W3 m ρ c (Proc.devRef .tc main_arg0))
    (W3 m ρ c (Proc.devRef .tc main_v25)) (W3 m ρ c (Proc.devRef .tc main_v24)) (W3 m ρ c (Proc.devRef .tc main_v11)) = _
  rw [W3_v23, W3_arg0, W3_v25, W3_v24, W3_v11]
  rfl

end Cert.KernelIdeal.GcnHost

end
-- ==== Proof.Spec.lean ====
/-
  One graph-convolution layer with a residual linear stage, stated once over the extended reals.

  Nodes `0 … 99999`, edges `0 … 1599999`; the edge list is two rows of 32-bit words, the sources and the targets. A word
  addresses a node for accumulation when, read as a signed integer, it is that node's number (any other word's edge is
  dropped), and addresses a node for reading after a negative word is wrapped round by the node count and the result
  clamped into range.

  With `f = x · W` the transformed features, `d (i) = (in-degree of i, self loop counted)^(-1/2)`, the aggregate at node
  `i` is `∑ f (s) · d (s) · d (i)` over the edges `s → i` and the self loop. Two arrangements of that sum are stated:
  `aggK` sums `f (s) · d (s)` over the edges proper, adds the self loop's term and multiplies the whole by `d (i)`;
  `aggR` sums `f (s) · (d (s) · d (t))` over the edge list with one self loop per node appended. The layer's result is
  `max (max (agg + b) 0 · Wₗᵀ + x) 0` of either.
-/
import Idealize.ShloMosaic.PureOps.Ideal
import Idealize.ShloMosaic.Lib.ValueIdx

noncomputable section

namespace Cert.Gcn

open Idealize.ShloMosaic Idealize.ShloMosaic.ValueIdx

/-- The zero both programs start their sums from and clip at. -/
def zero : EReal := Ideal.ofBits .f32 0x00000000#32
/-- The one both programs count edges with. -/
def one : EReal := Ideal.ofBits .f32 0x3F800000#32

/-- A negative position wrapped round by the node count. -/
def wrapWord (w : BitVec 32) : BitVec 32 := Scalar.select (IntOp.cmpi .slt w 0#32) (IntOp.addi w 100000#32) w
/-- The node a word addresses for reading: wrapped, then clamped into range. -/
def takeNode (w : BitVec 32) : Fin 100000 := ⟨min (wrapWord w).toInt.toNat (100000 - 1), by omega⟩

/-- The sources' row of the edge list. -/
def srcOf (ei : (⟨2, ![2, 1600000]⟩ : Shape).Idx → BitVec 32) (e : Fin 1600000) : BitVec 32 := ei (ix2 (0 : Fin 2) e)
/-- The targets' row of the edge list. -/
def dstOf (ei : (⟨2, ![2, 1600000]⟩ : Shape).Idx → BitVec 32) (e : Fin 1600000) : BitVec 32 := ei (ix2 (1 : Fin 2) e)

section
variable (src dst : Fin 1600000 → BitVec 32)
variable (x : (⟨2, ![100000, 128]⟩ : Shape).Idx → EReal) (wg wl : (⟨2, ![128, 128]⟩ : Shape).Idx → EReal)
  (b : (⟨1, ![128]⟩ : Shape).Idx → EReal)

/-- The transformed features `x · W`. -/
def feat (r : Fin 100000) (c : Fin 128) : EReal := ∑ k : Fin 128, x (ix2 r k) * wg (ix2 k c)

/-! ### The first arrangement: the edges proper, the self loop added by hand -/

/-- The degree: the edges into `i`, and one. -/
def degK (i : Fin 100000) : EReal :=
  (zero + ∑ e ∈ Finset.univ.filter (fun e : Fin 1600000 => (dst e).toInt = (i.val : Int)), one) + one
/-- The degree's inverse square root. -/
def dinvK (i : Fin 100000) : EReal := Ideal.rsqrt (degK dst i)
/-- The aggregate: `(∑ f (s) d (s) + f (i) d (i)) · d (i)`. -/
def aggK (i : Fin 100000) (c : Fin 128) : EReal :=
  ((zero + ∑ e ∈ Finset.univ.filter (fun e : Fin 1600000 => (dst e).toInt = (i.val : Int)),
      feat x wg (takeNode (src e)) c * dinvK dst (takeNode (src e))) + feat x wg i c * dinvK dst i) * dinvK dst i

/-! ### The second arrangement: one self loop per node appended to the edge list -/

/-- A row of the edge list with the nodes' own numbers appended. -/
def withLoops (row : Fin 1600000 → BitVec 32) (e : Fin 1700000) : BitVec 32 :=
  if h : e.val < 1600000 then row ⟨e.val, h⟩ else BitVec.ofNat 32 (e.val - 1600000)
/-- The degree: the entries of the extended target row that address `i`. -/
def degR (i : Fin 100000) : EReal :=
  zero + ∑ e ∈ Finset.univ.filter (fun e : Fin 1700000 => (withLoops dst e).toInt = (i.val : Int)), one
/-- The degree's inverse square root. -/
def dinvR (i : Fin 100000) : EReal := Ideal.rsqrt (degR dst i)
/-- The aggregate: `∑ f (s) · (d (s) · d (t))` over the extended list. -/
def aggR (i : Fin 100000) (c : Fin 128) : EReal :=
  zero + ∑ e ∈ Finset.univ.filter (fun e : Fin 1700000 => (withLoops dst e).toInt = (i.val : Int)),
    feat x wg (takeNode (withLoops src e)) c
      * (dinvR dst (takeNode (withLoops src e)) * dinvR dst (takeNode (withLoops dst e)))

/-! ### The rest of the layer, of either aggregate -/

/-- Bias, clip, the linear stage against the transposed weights, the residual, clip. -/
def layerOut (agg : Fin 100000 → Fin 128 → EReal) : (⟨2, ![100000, 128]⟩ : Shape).Idx → EReal := fun j =>
  max ((∑ k : Fin 128, max (agg (j 0 : Fin 100000) k + b (ix1 k)) zero * wl (ix2 (j 1 : Fin 128) k))
    + x (ix2 (j 0 : Fin 100000) (j 1 : Fin 128))) zero

theorem layerOut_apply (agg : Fin 100000 → Fin 128 → EReal) (r : Fin 100000) (c : Fin 128) :
    layerOut x wl b agg (ix2 r c)
      = max ((∑ k : Fin 128, max (agg r k + b (ix1 k)) zero * wl (ix2 c k)) + x (ix2 r c)) zero := rfl

end

end Cert.Gcn

end
-- ==== Proof.LibTakeSegment.lean ====
/-
  GATHER OF ROWS AND SEGMENT SUM, READ AT AN INDEX.

  Taking the rows of an array at integer positions, `x[idx]`, is a `stablehlo.gather` whose start indices form an
  `[M, 1]` array: result row `e` is the operand's row at the start index `idx[e, 0]`, read as a signed integer and
  clamped into `[0, N − 1]`. Summing rows by segment is a `stablehlo.scatter` with an addition body over the same
  `[M, 1]` array of indices: operand row `i` receives the sum of the update rows `e` whose index `idx[e, 0]`, read
  signed and NOT clamped, equals `i`; an update whose index falls outside `[0, N)` lands nowhere.

  This file states both for a rank-1 operand (a vector of `N` entries) and for a rank-2 operand (`N` rows of `D`
  entries), for every `N`, `M`, `D` and every index width. The dimension numbers are records built from a proof of
  their side conditions, so that a program's literal record is definitionally the record here at that program's proof.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.TakeSegment

open Idealize.ShloMosaic
open Idealize.ShloMosaic.ValueIdx

/-! ## `stablehlo.gather` at an `[M, 1]` array of start indices -/

section Gather
variable {α : Type}

/-- The dimension numbers of `x[idx]` for a vector `x : [N]` and start indices `[M, 1]`: the one operand axis is
    collapsed and indexed by the start index, the result `[M]` has no offset axis. -/
abbrev vecTakeDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of a vector read at `e`: the operand at the start index `idx[e, 0]`, read signed and clamped into
    `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecTakeDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecTakeDims N M wf).start (ix1 e) idx 0 + (vecTakeDims N M wf).batchCoord (ix1 e) 0
      + (vecTakeDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTakeDims N M wf).startIndexMap from List.mem_singleton.mpr rfl)]
  have hsi : (vecTakeDims N M wf).siIdx (ix1 e) ⟨List.idxOf (0 : Fin 1) (vecTakeDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix `x : [N, D]` and start indices `[M, 1]`: the row axis is collapsed
    and indexed by the start index, the column axis is the result's one offset axis, taken whole. -/
abbrev rowTakeDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The gather of rows read at `(e, q)`: entry `q` of the operand's row at the start index `idx[e, 0]`, read signed
    and clamped into `[0, N − 1]`. -/
theorem gather_rows_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowTakeDims N M D wf) x idx (ix2 e q)
      = x (ix2 ⟨min (idx (ix2 e (0 : Fin 1))).toInt.toNat (N - 1), by omega⟩ q) := by
  unfold Host.gather
  congr 1
  funext a
  refine Fin.ext ?_
  show (rowTakeDims N M D wf).start (ix2 e q) idx a + (rowTakeDims N M D wf).batchCoord (ix2 e q) a
      + (rowTakeDims N M D wf).offCoord (ix2 e q) a = _
  rw [GatherDims.batchCoord_eq_zero _ _ _ List.not_mem_nil]
  match a with
  | ⟨0, _⟩ =>
    show (rowTakeDims N M D wf).start (ix2 e q) idx (0 : Fin 2) + 0
      + (rowTakeDims N M D wf).offCoord (ix2 e q) (0 : Fin 2) = _
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowTakeDims N M D wf).startIndexMap from List.mem_singleton.mpr rfl)]
    have hsi : (rowTakeDims N M D wf).siIdx (ix2 e q) ⟨List.idxOf (0 : Fin 2) (rowTakeDims N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have hs : (rowTakeDims N M D wf).start (ix2 e q) idx (1 : Fin 2) = 0 := by
      unfold GatherDims.start
      rw [dif_neg (show (1 : Fin 2) ∉ (rowTakeDims N M D wf).startIndexMap from
        fun h => absurd (List.mem_singleton.mp h) (show (1 : Fin 2) ≠ 0 by decide))]
    show (rowTakeDims N M D wf).start (ix2 e q) idx (1 : Fin 2) + 0
      + (rowTakeDims N M D wf).offCoord (ix2 e q) (1 : Fin 2) = _
    rw [hs]
    simp only [Nat.add_zero, Nat.zero_add]
    rfl

end Gather

/-! ## The operand index an update of a scatter lands on -/

section ResultIdx

/-- An update lands on operand index `i` exactly when, on every operand axis, its start index plus its window
    coordinate is `i`'s coordinate: the sum is then in range on every axis, and is `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      subst hf
      exact (Int.toNat_of_nonneg (h a).1).symm
    · intro hall
      funext a
      refine Fin.ext ?_
      show (d.start j idx a + (d.window j a : Int)).toNat = (i a).val
      rw [hall a]
      exact Int.toNat_natCast _
  · rename_i h
    constructor
    · intro hf
      exact absurd hf (by simp)
    · intro hall
      exfalso
      apply h
      intro a
      rw [hall a]
      exact ⟨Int.natCast_nonneg _, by exact_mod_cast (i a).isLt⟩

/-- An operand axis keeps a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {A : Type*} [AddCommMonoid A] {n : Nat} (f : (⟨1, ![n]⟩ : Shape).Idx → A) :
    ∑ j, f j = ∑ a : Fin n, f (ix1 a) := by
  rw [← Equiv.sum_comp (idxEquiv1 (n := n)).symm f]
  rfl

end ResultIdx

/-! ## `stablehlo.scatter` with an addition body at an `[M, 1]` array of indices: a vector operand -/

section VecSeg

/-- The dimension numbers of a segment sum into a vector `[N]` from updates `[M]` at indices `[M, 1]`: the one
    operand axis is inserted and indexed by the scatter index, the updates have no window axis. -/
abbrev vecSegDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section
variable {N M w : Nat} (wf : ScatterDims.WF ⟨1, ![N]⟩ ⟨2, ![M, 1]⟩ ⟨1, ![M]⟩ [] [0] [0] 1)
  (idx : IVec ⟨2, ![M, 1]⟩ w)

/-- Update `e` starts at its index `idx[e, 0]`, read signed. -/
theorem vecSeg_start (e : Fin M) :
    (vecSegDims N M wf).start (ix1 e) idx (0 : Fin 1) = (idx (ix2 e (0 : Fin 1))).toInt := by
  unfold ScatterDims.start
  rw [dif_pos (show (0 : Fin 1) ∈ (vecSegDims N M wf).scatterDimsToOperandDims from List.mem_singleton.mpr rfl)]
  have hsi : (vecSegDims N M wf).siIdx (ix1 e) ⟨List.idxOf (0 : Fin 1) (vecSegDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- It has no window coordinate: the one operand axis is inserted. -/
theorem vecSeg_window (e : Fin M) : (vecSegDims N M wf).window (ix1 e) (0 : Fin 1) = 0 := by
  unfold ScatterDims.window
  rw [dif_neg (fun h => ((mem_sKept _ _).mp h) (List.mem_singleton.mpr rfl))]

/-- Update `e` lands on operand entry `i` exactly when its index `idx[e, 0]`, read signed, is `i`. -/
theorem vecSeg_resultIdx?_iff (e : Fin M) (i : Fin N) :
    (vecSegDims N M wf).resultIdx? (ix1 e) idx = some (ix1 i)
      ↔ (idx (ix2 e (0 : Fin 1))).toInt = (i.val : Int) := by
  rw [resultIdx?_eq_some_iff]
  constructor
  · intro h
    have h0 := h (0 : Fin 1)
    rw [vecSeg_start, vecSeg_window] at h0
    simpa using h0
  · intro h a
    obtain rfl : a = 0 := Subsingleton.elim _ _
    rw [vecSeg_start, vecSeg_window]
    simp only [Nat.cast_zero, add_zero]
    exact h

end

/-- The segment sum into a vector read at `i`: the operand's entry plus the sum of the updates whose index
    `idx[e, 0]`, read signed, is `i`. An update whose index is negative or at least `N` is in no such sum. -/
theorem scatterAdd_vec_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (vecSegDims N M wf) x idx upd (ix1 i)
      = x (ix1 i) + ∑ e ∈ Finset.univ.filter (fun e : Fin M => (idx (ix2 e (0 : Fin 1))).toInt = (i.val : Int)),
          upd (ix1 e) := by
  unfold Ideal.hostScatterAdd
  congr 1
  rw [Finset.sum_filter, Finset.sum_filter, sum_idx1]
  refine Finset.sum_congr rfl fun e _ => ?_
  exact if_congr (vecSeg_resultIdx?_iff wf idx e i) rfl rfl

end VecSeg

/-! ## The same scatter with a matrix operand: rows of `D` entries -/

section RowSeg

/-- The dimension numbers of a segment sum into a matrix `[N, D]` from updates `[M, D]` at indices `[M, 1]`: the
    row axis is inserted and indexed by the scatter index, the updates' column axis is their one window axis and goes
    to the operand's column axis. -/
abbrev rowSegDims (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

section
variable {N M D w : Nat} (wf : ScatterDims.WF ⟨2, ![N, D]⟩ ⟨2, ![M, 1]⟩ ⟨2, ![M, D]⟩ [1] [0] [0] 1)
  (idx : IVec ⟨2, ![M, 1]⟩ w)

/-- On the row axis update `(e, p)` starts at its index `idx[e, 0]`, read signed … -/
theorem rowSeg_start0 (e : Fin M) (p : Fin D) :
    (rowSegDims N M D wf).start (ix2 e p) idx (0 : Fin 2) = (idx (ix2 e (0 : Fin 1))).toInt := by
  unfold ScatterDims.start
  rw [dif_pos (show (0 : Fin 2) ∈ (rowSegDims N M D wf).scatterDimsToOperandDims from List.mem_singleton.mpr rfl)]
  have hsi : (rowSegDims N M D wf).siIdx (ix2 e p) ⟨List.idxOf (0 : Fin 2) (rowSegDims N M D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at `0`: the scatter index does not name that axis. -/
theorem rowSeg_start1 (e : Fin M) (p : Fin D) : (rowSegDims N M D wf).start (ix2 e p) idx (1 : Fin 2) = 0 := by
  unfold ScatterDims.start
  rw [dif_neg (fun h => absurd (List.mem_singleton.mp h) (show (1 : Fin 2) ≠ 0 by decide))]

/-- It has no window coordinate on the row axis, which is inserted … -/
theorem rowSeg_window0 (e : Fin M) (p : Fin D) : (rowSegDims N M D wf).window (ix2 e p) (0 : Fin 2) = 0 := by
  unfold ScatterDims.window
  rw [dif_neg (fun h => ((mem_sKept _ _).mp h) (List.mem_singleton.mpr rfl))]

/-- … and its own column `p` on the column axis. -/
theorem rowSeg_window1 (e : Fin M) (p : Fin D) : (rowSegDims N M D wf).window (ix2 e p) (1 : Fin 2) = p.val := by
  unfold ScatterDims.window
  rw [dif_pos ((mem_sKept _ _).mpr
    (fun h => absurd (List.mem_singleton.mp h) (show (1 : Fin 2) ≠ 0 by decide)))]
  rfl

/-- Update `(e, p)` lands on operand entry `(i, q)` exactly when its index `idx[e, 0]`, read signed, is `i` and its
    column is `q`. -/
theorem rowSeg_resultIdx?_iff (e : Fin M) (p : Fin D) (i : Fin N) (q : Fin D) :
    (rowSegDims N M D wf).resultIdx? (ix2 e p) idx = some (ix2 i q)
      ↔ (idx (ix2 e (0 : Fin 1))).toInt = (i.val : Int) ∧ p = q := by
  rw [resultIdx?_eq_some_iff]
  constructor
  · intro h
    have h0 : (rowSegDims N M D wf).start (ix2 e p) idx (0 : Fin 2)
        + (((rowSegDims N M D wf).window (ix2 e p) (0 : Fin 2) : Nat) : Int) = (i.val : Int) := h (0 : Fin 2)
    have h1 : (rowSegDims N M D wf).start (ix2 e p) idx (1 : Fin 2)
        + (((rowSegDims N M D wf).window (ix2 e p) (1 : Fin 2) : Nat) : Int) = (q.val : Int) := h (1 : Fin 2)
    rw [rowSeg_start0, rowSeg_window0] at h0
    rw [rowSeg_start1, rowSeg_window1] at h1
    simp only [Nat.cast_zero, add_zero] at h0
    simp only [zero_add] at h1
    exact ⟨h0, Fin.ext (by exact_mod_cast h1)⟩
  · rintro ⟨h0, rfl⟩ a
    match a with
    | ⟨0, _⟩ =>
      show (rowSegDims N M D wf).start (ix2 e p) idx (0 : Fin 2)
        + (((rowSegDims N M D wf).window (ix2 e p) (0 : Fin 2) : Nat) : Int) = (i.val : Int)
      rw [rowSeg_start0, rowSeg_window0]
      simp only [Nat.cast_zero, add_zero]
      exact h0
    | ⟨1, _⟩ =>
      show (rowSegDims N M D wf).start (ix2 e p) idx (1 : Fin 2)
        + (((rowSegDims N M D wf).window (ix2 e p) (1 : Fin 2) : Nat) : Int) = (p.val : Int)
      rw [rowSeg_start1, rowSeg_window1]
      simp only [zero_add]

end

/-- The segment sum into a matrix read at `(i, q)`: the operand's entry plus the sum, over the update rows `e` whose
    index `idx[e, 0]`, read signed, is `i`, of their entry `q`. A row whose index is negative or at least `N` is in
    no such sum. -/
theorem scatterAdd_rows_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (i : Fin N) (q : Fin D) :
    Ideal.hostScatterAdd (rowSegDims N M D wf) x idx upd (ix2 i q)
      = x (ix2 i q) + ∑ e ∈ Finset.univ.filter (fun e : Fin M => (idx (ix2 e (0 : Fin 1))).toInt = (i.val : Int)),
          upd (ix2 e q) := by
  unfold Ideal.hostScatterAdd
  congr 1
  rw [Finset.sum_filter, Finset.sum_filter, sum_idx2]
  refine Finset.sum_congr rfl fun e _ => ?_
  refine (Finset.sum_congr rfl fun b _ => if_congr (rowSeg_resultIdx?_iff wf idx e b i q) rfl rfl).trans ?_
  by_cases hP : (idx (ix2 e (0 : Fin 1))).toInt = (i.val : Int)
  · simp [hP]
  · simp [hP]

end RowSeg

/-! ## The records fit a program's printed ones

A program prints its dimension numbers as a record of literal lists over literal shapes whose last field is the proof
of the side conditions; each record above, at those sizes and that proof, is that record by definition. -/

section Fit

example (wf : GatherDims.WF ⟨1, ![100000]⟩ ⟨2, ![1700000, 1]⟩ ⟨1, ![1700000]⟩ [] [0] [] [0] [] 1 ![1]) :
    ({ offsetDims := [], collapsedSliceDims := [0], operandBatchingDims := [], startIndicesBatchingDims := [],
       startIndexMap := [0], indexVectorDim := 1, sliceSizes := ![1], wf := wf } :
      GatherDims ⟨1, ![100000]⟩ ⟨2, ![1700000, 1]⟩ ⟨1, ![1700000]⟩) = vecTakeDims 100000 1700000 wf := rfl

example (wf : GatherDims.WF ⟨2, ![100000, 128]⟩ ⟨2, ![1700000, 1]⟩ ⟨2, ![1700000, 128]⟩ [1] [0] [] [0] [] 1 ![1, 128]) :
    ({ offsetDims := [1], collapsedSliceDims := [0], operandBatchingDims := [], startIndicesBatchingDims := [],
       startIndexMap := [0], indexVectorDim := 1, sliceSizes := ![1, 128], wf := wf } :
      GatherDims ⟨2, ![100000, 128]⟩ ⟨2, ![1700000, 1]⟩ ⟨2, ![1700000, 128]⟩) = rowTakeDims 100000 1700000 128 wf := rfl

example (wf : ScatterDims.WF ⟨1, ![100000]⟩ ⟨2, ![1700000, 1]⟩ ⟨1, ![1700000]⟩ [] [0] [0] 1) :
    ({ updateWindowDims := [], insertedWindowDims := [0], scatterDimsToOperandDims := [0], indexVectorDim := 1,
       wf := wf } : ScatterDims ⟨1, ![100000]⟩ ⟨2, ![1700000, 1]⟩ ⟨1, ![1700000]⟩) = vecSegDims 100000 1700000 wf := rfl

example (wf : ScatterDims.WF ⟨2, ![100000, 128]⟩ ⟨2, ![1600000, 1]⟩ ⟨2, ![1600000, 128]⟩ [1] [0] [0] 1) :
    ({ updateWindowDims := [1], insertedWindowDims := [0], scatterDimsToOperandDims := [0], indexVectorDim := 1,
       wf := wf } : ScatterDims ⟨2, ![100000, 128]⟩ ⟨2, ![1600000, 1]⟩ ⟨2, ![1600000, 128]⟩)
      = rowSegDims 100000 1600000 128 wf := rfl

example (wf) : (vecTakeDims 100000 1700000 wf).startIndexMap = [0] := rfl
example (wf) : (vecTakeDims 100000 1700000 wf).sliceSizes = ![1] := rfl
example (wf) : (rowTakeDims 100000 1700000 128 wf).offsetDims = [1] := rfl
example (wf) : (rowTakeDims 100000 1700000 128 wf).sliceSizes = ![1, 128] := rfl
example (wf) : (vecSegDims 100000 1600000 wf).insertedWindowDims = [0] := rfl
example (wf) : (rowSegDims 100000 1600000 128 wf).updateWindowDims = [1] := rfl

end Fit

end Idealize.ShloMosaic.TakeSegment

end
-- ==== Proof.KernelValue.lean ====
/-
  The idealized kernel's result is the layer of the first arrangement of the aggregate.

  Read at a node and a column: the column of inverse-root degrees is `d` of the specification (the count of the edges
  into the node, and one, under the inverse square root); the array the host accumulates between the regions is, at
  `(r, k)`, the sum over the edges into `r` of the scaled product's row at the edge's source, plus the scaled product's
  own row `r`; the scaled product at `(s, k)` is `f (s, k) · d (s)`; the bias row and the transposed weights read the
  bias and the weights. So the finished rows are `max (max (aggK + b) 0 · Wₗᵀ + x) 0`.
-/
import proofs.«107790_j22746146799804_2_alg».proof.Proof.HostK
import proofs.«107790_j22746146799804_2_alg».proof.Proof.Spec
import proofs.«107790_j22746146799804_2_alg».proof.Proof.LibTakeSegment
import proofs.«107790_j22746146799804_2_alg».proof.Proof.LibRowLayout
import Idealize.ShloMosaic.Lib.ValueLayout

set_option maxRecDepth 16384

noncomputable section

namespace Cert.KernelIdeal.GcnValue

open Cert Cert.KernelIdeal Cert.KernelIdeal.Gen Cert.KernelIdeal.GcnHost
open Idealize.ShloMosaic Idealize.ShloMosaic.ValueIdx

/-- Two filtered sums agree when the conditions agree and the terms agree where the condition holds. -/
theorem sum_filter_congr {ι : Type} [Fintype ι] (p q : ι → Prop) [DecidablePred p] [DecidablePred q] (f g : ι → EReal)
    (hpq : ∀ e, p e ↔ q e) (hfg : ∀ e, q e → f e = g e) :
    ∑ e ∈ Finset.univ.filter p, f e = ∑ e ∈ Finset.univ.filter q, g e := by
  have h : Finset.univ.filter p = Finset.univ.filter q := Finset.filter_congr fun e _ => hpq e
  rw [h]
  exact Finset.sum_congr rfl fun e he => hfg e (Finset.mem_filter.mp he).2

variable (ei : S2x1600000.Idx → BitVec 32)

/-- The sources' row at an edge. -/
theorem srcRow_apply (e : Fin 1600000) : srcRow ei (ix1 e) = Gcn.srcOf ei e := by
  unfold srcRow
  refine (shapeCast_1a_a_apply _ shapeCasts_S1x1600000_S1600000 e).trans ?_
  exact slice2_axis0_apply 0 ei slices_S2x1600000_S1x1600000_0_0 (0 : Fin 1) e (0 : Fin 2) rfl

/-- The targets' row at an edge. -/
theorem dstRow_apply (e : Fin 1600000) : dstRow ei (ix1 e) = Gcn.dstOf ei e := by
  unfold dstRow
  refine (shapeCast_1a_a_apply _ shapeCasts_S1x1600000_S1600000 e).trans ?_
  exact slice2_axis0_apply 1 ei slices_S2x1600000_S1x1600000_1_0 (0 : Fin 1) e (1 : Fin 2) rfl

/-- A vector of edge words given a trailing unit axis reads the word at the edge. -/
theorem idxCol_apply (v : S1600000.Idx → BitVec 32) (e : Fin 1600000) :
    broadcastInDim S1600000x1 ![0] bcast_S1600000_S1600000x1_0 v (ix2 e (0 : Fin 1)) = v (ix1 e) :=
  broadcastInDim_apply _ bcast_S1600000_S1600000x1_0 v _ (ix1 e) (fun a => match a with
    | ⟨0, _⟩ => by show e.val = if (1600000 : Nat) = 1 then 0 else e.val; rw [if_neg (by decide)])

/-- The printed accumulation into a vector is the library's, at the program's own side conditions. -/
theorem scatterVec_eq (x : FVec Ideal S100000 .f32) (idx : IVec S1600000x1 32) (upd : FVec Ideal S1600000 .f32) :
    Host.scatterAdd (F := Ideal) (φ := .f32) scatter_S100000_S1600000x1_S1600000_n_0_0_1 x idx upd
      = Ideal.hostScatterAdd (TakeSegment.vecSegDims 100000 1600000 scatter_S100000_S1600000x1_S1600000_n_0_0_1.wf) x idx upd := rfl

/-- The printed accumulation into rows is the library's, at the program's own side conditions. -/
theorem scatterRows_eq (x : FVec Ideal S100000x128 .f32) (idx : IVec S1600000x1 32) (upd : FVec Ideal S1600000x128 .f32) :
    Host.scatterAdd (F := Ideal) (φ := .f32) scatter_S100000x128_S1600000x1_S1600000x128_1_0_0_1 x idx upd
      = Ideal.hostScatterAdd (TakeSegment.rowSegDims 100000 1600000 128 scatter_S100000x128_S1600000x1_S1600000x128_1_0_0_1.wf) x idx upd := rfl

/-- The printed taking of rows is the library's, at the program's own side conditions. -/
theorem gatherRows_eq (x : S100000x128.Idx → EReal) (idx : IVec S1600000x1 32) :
    Host.gather gather_S100000x128_S1600000x1_S1600000x128_1_0_n_n_0_1_1128 x idx
      = Host.gather (TakeSegment.rowTakeDims 100000 1600000 128 gather_S100000x128_S1600000x1_S1600000x128_1_0_n_n_0_1_1128.wf) x idx := rfl

/-- The degree vector at a node is the specification's degree. -/
theorem degVec_apply (r : Fin 100000) : degVec ei (ix1 r) = Gcn.degK (Gcn.dstOf ei) r := by
  unfold degVec Gcn.degK
  refine (addf_apply _ _ _).trans ?_
  refine congrArg₂ (· + ·) ?_ ((RowLayout.spread_scalar bcast_S_S100000 _ (ix1 r)).trans rfl)
  refine (congrFun (scatterVec_eq _ _ _) (ix1 r)).trans ?_
  refine (TakeSegment.scatterAdd_vec_apply _ _ _ _ r).trans ?_
  refine congrArg₂ (· + ·) ((RowLayout.spread_scalar bcast_S_S100000 _ (ix1 r)).trans rfl) ?_
  refine sum_filter_congr _ _ _ _ (fun e => by rw [idxCol_apply, dstRow_apply]) (fun e _ => ?_)
  exact (RowLayout.spread_scalar bcast_S_S1600000 _ (ix1 e)).trans rfl

/-- The host's inverse square root of a vector, at an entry, is the extended reals' inverse square root of the entry. -/
theorem rsqrt_apply (v : FVec Ideal S100000 .f32) (i : S100000.Idx) :
    Host.rsqrt (F := Ideal) (φ := .f32) v i = Ideal.rsqrt (v i) := rfl

/-- The column of inverse-root degrees at a node. -/
theorem dinvCol_apply (r : Fin 100000) : dinvCol ei (ix2 r (0 : Fin 1)) = Gcn.dinvK (Gcn.dstOf ei) r := by
  unfold dinvCol Gcn.dinvK
  refine (RowLayout.shapeCast_a_a1_apply (Host.rsqrt (F := Ideal) (φ := .f32) (degVec ei)) shapeCasts_S100000_S100000x1 r 0).trans ?_
  refine (rsqrt_apply (degVec ei) (ix1 r)).trans ?_
  exact congrArg Ideal.rsqrt (degVec_apply ei r)

/-- The wrapped sources at an edge. -/
theorem wrappedSrc_apply (e : Fin 1600000) : wrappedSrc ei (ix1 e) = Gcn.wrapWord (Gcn.srcOf ei e) := by
  unfold wrappedSrc Gcn.wrapWord
  show Scalar.select (IntOp.cmpi .slt (srcRow ei (ix1 e)) (broadcastInDim S1600000 ![] bcast_S_S1600000 (constantI S_ 32 0#32) (ix1 e)))
      (IntOp.addi (srcRow ei (ix1 e)) (broadcastInDim S1600000 ![] bcast_S_S1600000 (constantI S_ 32 100000#32) (ix1 e)))
      (srcRow ei (ix1 e)) = _
  rw [srcRow_apply, RowLayout.spread_scalar, RowLayout.spread_scalar]
  rfl

/-- The array accumulated between the regions, at a node and a column. -/
theorem aggRaw_apply (hs : S100000x128.Idx → EReal) (r : Fin 100000) (k : Fin 128) :
    aggRaw hs ei (ix2 r k)
      = (Gcn.zero + ∑ e ∈ Finset.univ.filter (fun e : Fin 1600000 => (Gcn.dstOf ei e).toInt = (r.val : Int)),
          hs (ix2 (Gcn.takeNode (Gcn.srcOf ei e)) k)) + hs (ix2 r k) := by
  unfold aggRaw
  refine (addf_apply _ _ _).trans ?_
  refine congrArg (· + hs (ix2 r k)) ?_
  refine (congrFun (scatterRows_eq _ _ _) (ix2 r k)).trans ?_
  refine (TakeSegment.scatterAdd_rows_apply _ _ _ _ r k).trans ?_
  refine congrArg₂ (· + ·) ((RowLayout.spread_scalar bcast_S_S100000x128 _ (ix2 r k)).trans rfl) ?_
  refine sum_filter_congr _ _ _ _ (fun e => by rw [idxCol_apply, dstRow_apply]) (fun e _ => ?_)
  refine (congrFun (gatherRows_eq _ _) (ix2 e k)).trans ?_
  refine (TakeSegment.gather_rows_apply (by decide) _ hs _ e k).trans ?_
  refine congrArg (fun n => hs (ix2 n k)) (Fin.ext ?_)
  show min (broadcastInDim S1600000x1 ![0] bcast_S1600000_S1600000x1_0 (wrappedSrc ei) (ix2 e (0 : Fin 1))).toInt.toNat (100000 - 1)
    = min (Gcn.wrapWord (Gcn.srcOf ei e)).toInt.toNat (100000 - 1)
  rw [idxCol_apply, wrappedSrc_apply]

/-- The first region's scaled product at a node and a column: the transformed feature times the node's factor. -/
theorem scaled_apply (x : S100000x128.Idx → EReal) (wg : S128x128.Idx → EReal) (s : Fin 100000) (k : Fin 128) :
    GcnRegion0.scaledRows x wg (dinvCol ei) (ix2 s k) = Gcn.feat x wg s k * Gcn.dinvK (Gcn.dstOf ei) s := by
  rw [GcnRegion0.scaledRows_apply, dinvCol_apply]
  rfl

/-- The accumulated array times the node's factor is the first arrangement of the aggregate. -/
theorem agg_apply (x : S100000x128.Idx → EReal) (wg : S128x128.Idx → EReal) (r : Fin 100000) (k : Fin 128) :
    aggRaw (GcnRegion0.scaledRows x wg (dinvCol ei)) ei (ix2 r k) * dinvCol ei (ix2 r (0 : Fin 1))
      = Gcn.aggK (Gcn.srcOf ei) (Gcn.dstOf ei) x wg r k := by
  rw [aggRaw_apply, dinvCol_apply, scaled_apply]
  unfold Gcn.aggK
  exact congrArg (fun z => ((Gcn.zero + z) + Gcn.feat x wg r k * Gcn.dinvK (Gcn.dstOf ei) r) * Gcn.dinvK (Gcn.dstOf ei) r)
    (Finset.sum_congr rfl fun e _ => scaled_apply ei x wg _ k)

theorem zero_eq : GcnBody.zero = Gcn.zero := rfl

/-- The kernel's result is the layer of the first arrangement. -/
theorem result_spec (x : S100000x128.Idx → EReal) (wg : S128x128.Idx → EReal) (b : S128.Idx → EReal) (wl : S128x128.Idx → EReal) :
    result x ei wg b wl = Gcn.layerOut x wl b (Gcn.aggK (Gcn.srcOf ei) (Gcn.dstOf ei) x wg) := by
  funext j
  obtain ⟨r, c, rfl⟩ : ∃ (r : Fin 100000) (c : Fin 128), j = ix2 r c := ⟨j 0, j 1, eq_ix2 j⟩
  rw [Gcn.layerOut_apply]
  unfold result
  rw [GcnRegion1.finishRows_apply, zero_eq]
  refine congrArg (fun z => max (z + x (ix2 r c)) Gcn.zero) (Finset.sum_congr rfl fun k _ => ?_)
  rw [agg_apply, shapeCast_a_1a_apply, transpose_ix2_apply]

end Cert.KernelIdeal.GcnValue

end
-- ==== Proof.Reference.lean ====
/-
  The reference program's result, stage by stage, is the layer of the specification over the extended edge list.

  The program appends one self loop per node to both rows of the edge list, counts the extended targets' row into the
  degrees, takes the inverse square roots, reads them and the transformed features back at the wrapped and clamped
  ends of every extended edge, sums the weighted features by target, and finishes with the bias, the clip, the linear
  stage against the transposed weights, the residual and the last clip. Each stage is read here at explicit
  coordinates and identified with the specification's function of the same name.
-/
import proofs.«107790_j22746146799804_2_alg».proof.Proof.Gen.ReferenceIdeal.Read
import proofs.«107790_j22746146799804_2_alg».proof.Proof.Spec
import proofs.«107790_j22746146799804_2_alg».proof.Proof.LibTakeSegment
import proofs.«107790_j22746146799804_2_alg».proof.Proof.LibRowLayout
import Idealize.ShloMosaic.Lib.ValueLayout

noncomputable section

namespace Cert.ReferenceIdeal.GcnRef

open Cert.ReferenceIdeal Cert.ReferenceIdeal.Read Idealize.ShloMosaic Idealize.ShloMosaic.ValueIdx

/-! ### The extended rows -/

/-- The sources' row with the nodes' own numbers appended, read at a position. -/
theorem v3_at (x1 : (⟨S2x1600000, .i32⟩ : BufTy).Contents (Elt Ideal)) (e : Fin 1700000) :
    val_main_v3 (F := Ideal) x1 (ix1 e) = Cert.Gcn.withLoops (Cert.Gcn.srcOf x1) e := by
  unfold val_main_v3 Cert.Gcn.withLoops
  by_cases h : e.val < 1600000
  · rw [dif_pos h]
    refine (RowLayout.concat_vec_left _ _ _ e ⟨e.val, h⟩ rfl).trans ?_
    rw [val_main_v2_apply, val_main_v1_apply]
    unfold Cert.Gcn.srcOf
    congr 1
    funext a
    refine Fin.ext ?_
    match a with
    | ⟨0, _⟩ => rfl
    | ⟨1, _⟩ => exact Nat.mod_eq_of_lt h
  · rw [dif_neg h]
    refine (RowLayout.concat_vec_right _ _ _ e ⟨e.val - 1600000, by omega⟩
      (by show e.val - 1600000 + 1600000 = e.val; omega)).trans ?_
    rfl

/-- The targets' row with the nodes' own numbers appended, read at a position. -/
theorem v6_at (x1 : (⟨S2x1600000, .i32⟩ : BufTy).Contents (Elt Ideal)) (e : Fin 1700000) :
    val_main_v6 (F := Ideal) x1 (ix1 e) = Cert.Gcn.withLoops (Cert.Gcn.dstOf x1) e := by
  unfold val_main_v6 Cert.Gcn.withLoops
  by_cases h : e.val < 1600000
  · rw [dif_pos h]
    refine (RowLayout.concat_vec_left _ _ _ e ⟨e.val, h⟩ rfl).trans ?_
    rw [val_main_v5_apply, val_main_v4_apply]
    unfold Cert.Gcn.dstOf
    congr 1
    funext a
    refine Fin.ext ?_
    match a with
    | ⟨0, _⟩ => rfl
    | ⟨1, _⟩ => exact Nat.mod_eq_of_lt h
  · rw [dif_neg h]
    refine (RowLayout.concat_vec_right _ _ _ e ⟨e.val - 1600000, by omega⟩
      (by show e.val - 1600000 + 1600000 = e.val; omega)).trans ?_
    rfl

/-! ### The degree and its inverse square root -/

/-- The column of scatter indices reads the extended targets' row. -/
theorem v10_at (x1 : (⟨S2x1600000, .i32⟩ : BufTy).Contents (Elt Ideal)) (e : Fin 1700000) :
    val_main_v10 (F := Ideal) x1 (ix2 e (0 : Fin 1)) = Cert.Gcn.withLoops (Cert.Gcn.dstOf x1) e := by
  rw [val_main_v10_apply]
  refine Eq.trans (congrArg (val_main_v6 (F := Ideal) x1) ?_) (v6_at x1 e)
  funext a
  match a with
  | ⟨0, _⟩ => rfl

theorem v9_at (i : Fin 100000) : val_main_v9 (F := Ideal) (ix1 i) = Cert.Gcn.zero := by
  rw [val_main_v9_apply, val_main_cst_0_apply]; rfl

theorem v8_at (e : Fin 1700000) : val_main_v8 (F := Ideal) (ix1 e) = Cert.Gcn.one := by
  rw [val_main_v8_apply, val_main_cst_apply]; rfl

/-- The printed segment sum into a vector is the library's, at the program's own side conditions. -/
theorem scatterVec_eq (x : FVec Ideal S100000 .f32) (idx : IVec S1700000x1 32) (upd : FVec Ideal S1700000 .f32) :
    Host.scatterAdd (F := Ideal) (φ := .f32) scatter_S100000_S1700000x1_S1700000_n_0_0_1 x idx upd
      = Ideal.hostScatterAdd (TakeSegment.vecSegDims 100000 1700000
          Facts₀.scatter_S100000_S1700000x1_S1700000_n_0_0_1_wf) x idx upd := rfl

/-- The degree: the count of the extended targets that address the node. -/
theorem v11_at (x1 : (⟨S2x1600000, .i32⟩ : BufTy).Contents (Elt Ideal)) (i : Fin 100000) :
    val_main_v11 (F := Ideal) x1 (ix1 i) = Cert.Gcn.degR (Cert.Gcn.dstOf x1) i := by
  unfold val_main_v11 Cert.Gcn.degR
  refine (congrFun (scatterVec_eq _ _ _) (ix1 i)).trans ?_
  refine (TakeSegment.scatterAdd_vec_apply Facts₀.scatter_S100000_S1700000x1_S1700000_n_0_0_1_wf
    (val_main_v9 (F := Ideal)) (val_main_v10 (F := Ideal) x1) (val_main_v8 (F := Ideal)) i).trans ?_
  rw [v9_at]
  refine congrArg (fun t => Cert.Gcn.zero + t) ?_
  refine Finset.sum_congr (Finset.filter_congr fun e _ => ?_) (fun e _ => v8_at e)
  rw [v10_at]

/-- The degree's inverse square root. -/
theorem v12_at (x1 : (⟨S2x1600000, .i32⟩ : BufTy).Contents (Elt Ideal)) (i : Fin 100000) :
    val_main_v12 (F := Ideal) x1 (ix1 i) = Cert.Gcn.dinvR (Cert.Gcn.dstOf x1) i := by
  unfold Cert.Gcn.dinvR
  rw [val_main_v12_apply, v11_at]
  exact Ideal.hostUnary_rsqrt_def _

/-! ### The three reads at the ends of the extended edges -/

/-- A column of start indices spread from a row reads the row. -/
theorem v18_at (x1 : (⟨S2x1600000, .i32⟩ : BufTy).Contents (Elt Ideal)) (e : Fin 1700000) :
    val_main_v18 (F := Ideal) x1 (ix2 e (0 : Fin 1))
      = Cert.Gcn.wrapWord (Cert.Gcn.withLoops (Cert.Gcn.srcOf x1) e) := by
  rw [val_main_v18_apply]
  refine Eq.trans (congrArg (val_main_v17 (F := Ideal) x1) (?_ : _ = ix1 e)) ?_
  · funext a
    match a with
    | ⟨0, _⟩ => rfl
  · rw [val_main_v17_apply, val_main_v14_apply, val_main_v16_apply, val_main_v13_apply, val_main_v15_apply,
      val_main_c_apply, val_main_c_1_apply, v3_at]
    rfl

theorem v25_at (x1 : (⟨S2x1600000, .i32⟩ : BufTy).Contents (Elt Ideal)) (e : Fin 1700000) :
    val_main_v25 (F := Ideal) x1 (ix2 e (0 : Fin 1))
      = Cert.Gcn.wrapWord (Cert.Gcn.withLoops (Cert.Gcn.dstOf x1) e) := by
  rw [val_main_v25_apply]
  refine Eq.trans (congrArg (val_main_v24 (F := Ideal) x1) (?_ : _ = ix1 e)) ?_
  · funext a
    match a with
    | ⟨0, _⟩ => rfl
  · rw [val_main_v24_apply, val_main_v21_apply, val_main_v23_apply, val_main_v20_apply, val_main_v22_apply,
      val_main_c_2_apply, val_main_c_3_apply, v6_at]
    rfl

theorem v33_at (x1 : (⟨S2x1600000, .i32⟩ : BufTy).Contents (Elt Ideal)) (e : Fin 1700000) :
    val_main_v33 (F := Ideal) x1 (ix2 e (0 : Fin 1))
      = Cert.Gcn.wrapWord (Cert.Gcn.withLoops (Cert.Gcn.srcOf x1) e) := by
  rw [val_main_v33_apply]
  refine Eq.trans (congrArg (val_main_v32 (F := Ideal) x1) (?_ : _ = ix1 e)) ?_
  · funext a
    match a with
    | ⟨0, _⟩ => rfl
  · rw [val_main_v32_apply, val_main_v29_apply, val_main_v31_apply, val_main_v28_apply, val_main_v30_apply,
      val_main_c_4_apply, val_main_c_5_apply, v3_at]
    rfl

/-- The inverse square root of the degree at an extended edge's source. -/
theorem v19_at (x1 : (⟨S2x1600000, .i32⟩ : BufTy).Contents (Elt Ideal)) (e : Fin 1700000) :
    val_main_v19 (F := Ideal) x1 (ix1 e)
      = Cert.Gcn.dinvR (Cert.Gcn.dstOf x1) (Cert.Gcn.takeNode (Cert.Gcn.withLoops (Cert.Gcn.srcOf x1) e)) := by
  unfold val_main_v19
  refine (TakeSegment.gather_vec_apply (by decide) Facts₀.gather_S100000_S1700000x1_S1700000_n_0_n_n_0_1_1_wf
    (val_main_v12 (F := Ideal) x1) (val_main_v18 (F := Ideal) x1) e).trans ?_
  rw [v12_at]
  refine congrArg (Cert.Gcn.dinvR (Cert.Gcn.dstOf x1)) (Fin.ext ?_)
  show min (val_main_v18 (F := Ideal) x1 (ix2 e (0 : Fin 1))).toInt.toNat (100000 - 1) = _
  rw [v18_at]
  rfl

/-- The inverse square root of the degree at an extended edge's target. -/
theorem v26_at (x1 : (⟨S2x1600000, .i32⟩ : BufTy).Contents (Elt Ideal)) (e : Fin 1700000) :
    val_main_v26 (F := Ideal) x1 (ix1 e)
      = Cert.Gcn.dinvR (Cert.Gcn.dstOf x1) (Cert.Gcn.takeNode (Cert.Gcn.withLoops (Cert.Gcn.dstOf x1) e)) := by
  unfold val_main_v26
  refine (TakeSegment.gather_vec_apply (by decide) Facts₀.gather_S100000_S1700000x1_S1700000_n_0_n_n_0_1_1_wf
    (val_main_v12 (F := Ideal) x1) (val_main_v25 (F := Ideal) x1) e).trans ?_
  rw [v12_at]
  refine congrArg (Cert.Gcn.dinvR (Cert.Gcn.dstOf x1)) (Fin.ext ?_)
  show min (val_main_v25 (F := Ideal) x1 (ix2 e (0 : Fin 1))).toInt.toNat (100000 - 1) = _
  rw [v25_at]
  rfl

/-- The transformed features. -/
theorem v7_at (x0 : (⟨S100000x128, .f32⟩ : BufTy).Contents (Elt Ideal)) (x2 : (⟨S128x128, .f32⟩ : BufTy).Contents (Elt Ideal)) (r : Fin 100000) (c : Fin 128) :
    val_main_v7 (F := Ideal) x0 x2 (ix2 r c) = Cert.Gcn.feat x0 x2 r c := by
  rw [val_main_v7_apply]
  unfold Cert.Gcn.feat
  refine Finset.sum_congr rfl fun k _ => ?_
  have hl : lidx_main_v7 (ix2 r c) k = ix2 r k := funext fun a => by
    match a with
    | ⟨0, _⟩ => rfl
    | ⟨1, _⟩ => rfl
  have hr : ridx_main_v7 (ix2 r c) k = ix2 k c := funext fun a => by
    match a with
    | ⟨0, _⟩ => rfl
    | ⟨1, _⟩ => rfl
  rw [hl, hr]

/-- The transformed features at an extended edge's source. -/
theorem v34_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (e : Fin 1700000) (c : Fin 128) :
    val_main_v34 (F := Ideal) x0 x1 x2 (ix2 e c)
      = Cert.Gcn.feat x0 x2 (Cert.Gcn.takeNode (Cert.Gcn.withLoops (Cert.Gcn.srcOf x1) e)) c := by
  unfold val_main_v34
  refine (TakeSegment.gather_rows_apply (by decide)
    Facts₀.gather_S100000x128_S1700000x1_S1700000x128_1_0_n_n_0_1_1128_wf
    (val_main_v7 (F := Ideal) x0 x2) (val_main_v33 (F := Ideal) x1) e c).trans ?_
  rw [v7_at]
  refine congrArg (fun n => Cert.Gcn.feat x0 x2 n c) (Fin.ext ?_)
  show min (val_main_v33 (F := Ideal) x1 (ix2 e (0 : Fin 1))).toInt.toNat (100000 - 1) = _
  rw [v33_at]
  rfl

/-! ### The aggregate -/

/-- The printed segment sum into rows is the library's, at the program's own side conditions. -/
theorem scatterRows_eq (x : FVec Ideal S100000x128 .f32) (idx : IVec S1700000x1 32)
    (upd : FVec Ideal S1700000x128 .f32) :
    Host.scatterAdd (F := Ideal) (φ := .f32) scatter_S100000x128_S1700000x1_S1700000x128_1_0_0_1 x idx upd
      = Ideal.hostScatterAdd (TakeSegment.rowSegDims 100000 1700000 128
          Facts₀.scatter_S100000x128_S1700000x1_S1700000x128_1_0_0_1_wf) x idx upd := rfl

theorem v39_at (x1 : (⟨S2x1600000, .i32⟩ : BufTy).Contents (Elt Ideal)) (e : Fin 1700000) :
    val_main_v39 (F := Ideal) x1 (ix2 e (0 : Fin 1)) = Cert.Gcn.withLoops (Cert.Gcn.dstOf x1) e := by
  rw [val_main_v39_apply]
  refine Eq.trans (congrArg (val_main_v6 (F := Ideal) x1) ?_) (v6_at x1 e)
  funext a
  match a with
  | ⟨0, _⟩ => rfl

theorem v38_at (i : Fin 100000) (c : Fin 128) : val_main_v38 (F := Ideal) (ix2 i c) = Cert.Gcn.zero := by
  rw [val_main_v38_apply, val_main_cst_6_apply]; rfl

/-- The weight of an extended edge, spread over the columns. -/
theorem v36_at (x1 : (⟨S2x1600000, .i32⟩ : BufTy).Contents (Elt Ideal)) (e : Fin 1700000) (c : Fin 128) :
    val_main_v36 (F := Ideal) x1 (ix2 e c)
      = Cert.Gcn.dinvR (Cert.Gcn.dstOf x1) (Cert.Gcn.takeNode (Cert.Gcn.withLoops (Cert.Gcn.srcOf x1) e))
        * Cert.Gcn.dinvR (Cert.Gcn.dstOf x1) (Cert.Gcn.takeNode (Cert.Gcn.withLoops (Cert.Gcn.dstOf x1) e)) := by
  rw [val_main_v36_apply]
  refine Eq.trans (congrArg (val_main_v35 (F := Ideal) x1) (?_ : _ = ix2 e (0 : Fin 1))) ?_
  · funext a
    match a with
    | ⟨0, _⟩ => rfl
    | ⟨1, _⟩ => rfl
  · rw [val_main_v35_apply]
    refine Eq.trans (congrArg (val_main_v27 (F := Ideal) x1) (?_ : _ = ix1 e)) ?_
    · funext a
      match a with
      | ⟨0, _⟩ => rfl
    · rw [val_main_v27_apply, v19_at, v26_at]
      exact Ideal.mulf_def _ _

/-- The message of an extended edge. -/
theorem v37_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (e : Fin 1700000) (c : Fin 128) :
    val_main_v37 (F := Ideal) x0 x1 x2 (ix2 e c)
      = Cert.Gcn.feat x0 x2 (Cert.Gcn.takeNode (Cert.Gcn.withLoops (Cert.Gcn.srcOf x1) e)) c
        * (Cert.Gcn.dinvR (Cert.Gcn.dstOf x1) (Cert.Gcn.takeNode (Cert.Gcn.withLoops (Cert.Gcn.srcOf x1) e))
          * Cert.Gcn.dinvR (Cert.Gcn.dstOf x1) (Cert.Gcn.takeNode (Cert.Gcn.withLoops (Cert.Gcn.dstOf x1) e))) := by
  rw [val_main_v37_apply, v34_at, v36_at]
  exact Ideal.mulf_def _ _

/-- The aggregate: the messages summed by target. -/
theorem v40_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (i : Fin 100000) (c : Fin 128) :
    val_main_v40 (F := Ideal) x0 x1 x2 (ix2 i c)
      = Cert.Gcn.aggR (Cert.Gcn.srcOf x1) (Cert.Gcn.dstOf x1) x0 x2 i c := by
  unfold val_main_v40 Cert.Gcn.aggR
  refine (congrFun (scatterRows_eq _ _ _) (ix2 i c)).trans ?_
  refine (TakeSegment.scatterAdd_rows_apply Facts₀.scatter_S100000x128_S1700000x1_S1700000x128_1_0_0_1_wf
    (val_main_v38 (F := Ideal)) (val_main_v39 (F := Ideal) x1) (val_main_v37 (F := Ideal) x0 x1 x2) i c).trans ?_
  rw [v38_at]
  refine congrArg (fun t => Cert.Gcn.zero + t) ?_
  refine Finset.sum_congr (Finset.filter_congr fun e _ => ?_) (fun e _ => v37_at x0 x1 x2 e c)
  rw [v39_at]

/-! ### The rest of the layer -/

/-- The bias spread over the rows. -/
theorem v42_at (x3 : (⟨S128, .f32⟩ : BufTy).Contents (Elt Ideal)) (r : Fin 100000) (k : Fin 128) :
    val_main_v42 (F := Ideal) x3 (ix2 r k) = x3 (ix1 k) := by
  rw [val_main_v42_apply]
  refine Eq.trans (congrArg (val_main_v41 (F := Ideal) x3) (?_ : _ = ix2 (0 : Fin 1) k)) ?_
  · funext a
    match a with
    | ⟨0, _⟩ => rfl
    | ⟨1, _⟩ => rfl
  · rw [val_main_v41_apply]
    refine congrArg x3 ?_
    funext a
    match a with
    | ⟨0, _⟩ => rfl

theorem call0_at (r : Fin 100000) (k : Fin 128) : val_main_call0_v0 (F := Ideal) (ix2 r k) = Cert.Gcn.zero := by
  rw [val_main_call0_v0_apply, val_main_call0_cst_apply]; rfl

theorem call1_at (r : Fin 100000) (k : Fin 128) : val_main_call1_v0 (F := Ideal) (ix2 r k) = Cert.Gcn.zero := by
  rw [val_main_call1_v0_apply, val_main_call1_cst_apply]; rfl

/-- The aggregate with the bias, clipped. -/
theorem v44_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (r : Fin 100000) (k : Fin 128) :
    val_main_v44 (F := Ideal) x0 x1 x2 x3 (ix2 r k)
      = max (Cert.Gcn.aggR (Cert.Gcn.srcOf x1) (Cert.Gcn.dstOf x1) x0 x2 r k + x3 (ix1 k)) Cert.Gcn.zero := by
  rw [val_main_v44_apply, val_main_v43_apply, v40_at, v42_at, call0_at]
  exact (Ideal.maximumf_def _ _).trans (congrArg (fun t => max t Cert.Gcn.zero) (Ideal.addf_def _ _))

/-- The second weights transposed. -/
theorem v45_at (x4 : (⟨S128x128, .f32⟩ : BufTy).Contents (Elt Ideal)) (k c : Fin 128) : val_main_v45 (F := Ideal) x4 (ix2 k c) = x4 (ix2 c k) := by
  rw [val_main_v45_apply]
  refine congrArg x4 ?_
  funext a
  match a with
  | ⟨0, _⟩ => rfl
  | ⟨1, _⟩ => rfl

/-- The linear stage. -/
theorem v46_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (r : Fin 100000) (c : Fin 128) :
    val_main_v46 (F := Ideal) x0 x1 x2 x3 x4 (ix2 r c)
      = ∑ k : Fin 128, max (Cert.Gcn.aggR (Cert.Gcn.srcOf x1) (Cert.Gcn.dstOf x1) x0 x2 r k + x3 (ix1 k)) Cert.Gcn.zero
          * x4 (ix2 c k) := by
  rw [val_main_v46_apply]
  refine Finset.sum_congr rfl fun k _ => ?_
  have hl : lidx_main_v46 (ix2 r c) k = ix2 r k := funext fun a => by
    match a with
    | ⟨0, _⟩ => rfl
    | ⟨1, _⟩ => rfl
  have hr : ridx_main_v46 (ix2 r c) k = ix2 k c := funext fun a => by
    match a with
    | ⟨0, _⟩ => rfl
    | ⟨1, _⟩ => rfl
  rw [hl, hr, v44_at, v45_at]

/-- The reference's result is the layer of the specification's second arrangement. -/
theorem ref_value (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    Cert.ReferenceIdeal.Read.val_main_v48 (F := Ideal) x0 x1 x2 x3 x4
      = Cert.Gcn.layerOut x0 x4 x3 (Cert.Gcn.aggR (Cert.Gcn.srcOf x1) (Cert.Gcn.dstOf x1) x0 x2) := by
  funext j
  obtain ⟨r, c, rfl⟩ : ∃ (r : Fin 100000) (c : Fin 128), j = ix2 r c := ⟨j 0, j 1, eq_ix2 j⟩
  rw [Cert.Gcn.layerOut_apply, val_main_v48_apply, val_main_v47_apply, v46_at, call1_at]
  exact (Ideal.maximumf_def _ _).trans (congrArg (fun t => max t Cert.Gcn.zero) (Ideal.addf_def _ _))

end Cert.ReferenceIdeal.GcnRef

end
-- ==== Proof.Algebra.lean ====
/-
  THE TWO ARRANGEMENTS OF THE AGGREGATE AGREE.

  The extended edge list is the edge list followed by one self loop per node. A sum over its positions is the sum over
  the edges proper plus the sum over the nodes, and among the appended positions exactly one addresses a given node
  `i`: the one holding `i`'s own number, since a node's number fits a signed 32-bit word. So the degree counted over
  the extended list is the edges into `i` and one more, which is the degree counted the other way up to the order of
  the additions. That degree is a positive whole number, so its inverse square root `d (i)` is a nonnegative REAL, and
  multiplication by a nonnegative real distributes over every sum of extended reals, finite or not. Moving the factor
  `d (i)` across the sum turns `(∑ f (s) d (s) + f (i) d (i)) · d (i)` into `∑ f (s) (d (s) d (i)) + f (i) (d (i) d (i))`.
  Nothing is asked of the features or the weights.
-/
import proofs.«107790_j22746146799804_2_alg».proof.Proof.Spec
import Idealize.ShloMosaic.PureOps.Ideal

noncomputable section

open scoped BigOperators

namespace Cert.Gcn

open Idealize.ShloMosaic Idealize.ShloMosaic.ValueIdx

/-! ## The two constants -/

/-- The word `0x3F800000` denotes the real `1`. -/
theorem one_eq : one = ((1 : ℝ) : EReal) := by
  unfold one
  simp [Ideal.ofBits, Ideal.ieee, -EReal.coe_mul]; norm_num

/-- The word `0x00000000` denotes `0`. -/
theorem zero_eq : zero = 0 := by
  unfold zero
  simp [Ideal.ofBits, Ideal.ieee]

/-! ## Words that address a node -/

/-- A node's number, written as a 32-bit word, reads back signed as itself: it is below `2 ^ 31`. -/
theorem toInt_ofNat_node (j : Fin 100000) : (BitVec.ofNat 32 j.val).toInt = (j.val : Int) := by
  have hj := j.isLt
  rw [BitVec.toInt_eq_toNat_cond, BitVec.toNat_ofNat]
  have hm : j.val % 2 ^ 32 = j.val := Nat.mod_eq_of_lt (by omega)
  rw [hm, if_pos (by omega)]

/-- A word that is not negative is left as it is by the wrap-around. -/
theorem wrapWord_of_nonneg {w : BitVec 32} (h : 0 ≤ w.toInt) : wrapWord w = w := by
  have hs : w.slt 0#32 = false := by
    simp only [BitVec.slt, BitVec.toInt_zero, decide_eq_false_iff_not, not_lt]
    exact h
  unfold wrapWord Scalar.select IntOp.cmpi
  simp [hs]

/-- A word that reads signed as node `i`'s number addresses `i` for reading: neither the wrap-around nor the clamp
    moves it. -/
theorem takeNode_of_toInt {w : BitVec 32} {i : Fin 100000} (h : w.toInt = (i.val : Int)) : takeNode w = i := by
  have hi := i.isLt
  refine Fin.ext ?_
  show min (wrapWord w).toInt.toNat (100000 - 1) = i.val
  rw [wrapWord_of_nonneg (by omega), h, Int.toNat_natCast]
  omega

/-- In particular a node's own number addresses it. -/
theorem takeNode_ofNat (i : Fin 100000) : takeNode (BitVec.ofNat 32 i.val) = i :=
  takeNode_of_toInt (toInt_ofNat_node i)

/-! ## The extended list: the edges proper, then the nodes -/

/-- On the first `1600000` positions the extended row is the row. -/
theorem withLoops_castAdd (row : Fin 1600000 → BitVec 32) (e : Fin 1600000) :
    withLoops row (Fin.castAdd 100000 e) = row e := by
  unfold withLoops
  rw [dif_pos (show (Fin.castAdd 100000 e).val < 1600000 from e.isLt)]
  rfl

/-- On the appended positions it is the node's number. -/
theorem withLoops_natAdd (row : Fin 1600000 → BitVec 32) (j : Fin 100000) :
    withLoops row (Fin.natAdd 1600000 j) = BitVec.ofNat 32 j.val := by
  unfold withLoops
  have hv : (Fin.natAdd 1600000 j).val = 1600000 + j.val := rfl
  rw [dif_neg (show ¬ (Fin.natAdd 1600000 j).val < 1600000 by rw [hv]; omega), hv, Nat.add_sub_cancel_left]

/-- A sum over the extended list's positions is the sum over the edges proper plus the sum over the nodes. -/
theorem sum_split (F : Fin 1700000 → EReal) :
    ∑ e, F e = ∑ e : Fin 1600000, F (Fin.castAdd 100000 e) + ∑ j : Fin 100000, F (Fin.natAdd 1600000 j) :=
  Fin.sum_univ_add (a := 1600000) (b := 100000) (F : Fin (1600000 + 100000) → EReal)

/-- A sum over the positions of the extended list that address node `i`: the same sum over the edges proper that
    address `i`, plus the term at `i`'s own self loop, the one appended position addressing `i`. -/
theorem sum_loops_filter (dst : Fin 1600000 → BitVec 32) (i : Fin 100000) (G : Fin 1700000 → EReal) :
    ∑ e ∈ Finset.univ.filter (fun e : Fin 1700000 => (withLoops dst e).toInt = (i.val : Int)), G e
      = ∑ e ∈ Finset.univ.filter (fun e : Fin 1600000 => (dst e).toInt = (i.val : Int)), G (Fin.castAdd 100000 e)
        + G (Fin.natAdd 1600000 i) := by
  rw [Finset.sum_filter, sum_split, Finset.sum_filter]
  refine congrArg₂ (· + ·) ?_ ?_
  · refine Finset.sum_congr rfl fun e _ => ?_
    rw [withLoops_castAdd]
  · have hj : ∀ j : Fin 100000,
        (if (withLoops dst (Fin.natAdd 1600000 j)).toInt = (i.val : Int) then G (Fin.natAdd 1600000 j) else 0)
          = if j = i then G (Fin.natAdd 1600000 j) else 0 := by
      intro j
      rw [withLoops_natAdd, toInt_ofNat_node]
      refine if_congr ?_ rfl rfl
      constructor
      · intro h
        exact Fin.ext (by exact_mod_cast h)
      · rintro rfl
        rfl
    rw [Finset.sum_congr rfl (fun j _ => hj j), Finset.sum_ite_eq']
    simp

/-! ## The degree -/

/-- The two counts of the degree agree: the edges into `i` and one, added in either order. -/
theorem degR_eq_degK (dst : Fin 1600000 → BitVec 32) (i : Fin 100000) : degR dst i = degK dst i := by
  unfold degR degK
  rw [sum_loops_filter dst i (fun _ => one), add_assoc]

/-- Hence so do its inverse square roots. -/
theorem dinvR_eq_dinvK (dst : Fin 1600000 → BitVec 32) (i : Fin 100000) : dinvR dst i = dinvK dst i := by
  unfold dinvR dinvK
  rw [degR_eq_degK]

/-- A sum of ones over a finite set is the number of its elements. -/
theorem sum_one_coe {ι : Type*} (s : Finset ι) : ∑ _e ∈ s, ((1 : ℝ) : EReal) = ((s.card : ℝ) : EReal) := by
  classical
  induction s using Finset.induction_on with
  | empty => simp
  | insert a s ha ih =>
    rw [Finset.sum_insert ha, ih, Finset.card_insert_of_notMem ha, ← EReal.coe_add]
    congr 1
    push_cast
    ring

/-- The degree is the real number `(edges into i) + 1`. -/
theorem degK_coe (dst : Fin 1600000 → BitVec 32) (i : Fin 100000) :
    degK dst i = ((((Finset.univ.filter (fun e : Fin 1600000 => (dst e).toInt = (i.val : Int))).card : ℝ) + 1 : ℝ) : EReal) := by
  unfold degK
  rw [zero_eq, one_eq, zero_add, sum_one_coe, ← EReal.coe_add]

/-- The degree's inverse square root is a nonnegative real: the degree is a positive real. -/
theorem dinvK_real (dst : Fin 1600000 → BitVec 32) (i : Fin 100000) : ∃ r : ℝ, 0 ≤ r ∧ dinvK dst i = (r : EReal) := by
  refine ⟨(Real.sqrt (((Finset.univ.filter (fun e : Fin 1600000 => (dst e).toInt = (i.val : Int))).card : ℝ) + 1))⁻¹,
    inv_nonneg.mpr (Real.sqrt_nonneg _), ?_⟩
  have hpos : (0 : ℝ) < ((Finset.univ.filter (fun e : Fin 1600000 => (dst e).toInt = (i.val : Int))).card : ℝ) + 1 := by
    positivity
  unfold dinvK
  rw [degK_coe, Ideal.rsqrt_coe, if_neg (not_lt.mpr hpos.le), if_neg hpos.ne']

/-! ## The aggregate -/

/-- Multiplication by a nonnegative real goes inside a finite sum of extended reals, whatever the terms. -/
theorem sum_mul_coe {ι : Type*} (s : Finset ι) (g : ι → EReal) {r : ℝ} (hr : 0 ≤ r) :
    (∑ e ∈ s, g e) * (r : EReal) = ∑ e ∈ s, g e * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The two arrangements of the aggregate agree. -/
theorem aggR_eq_aggK (src dst : Fin 1600000 → BitVec 32) (x : (⟨2, ![100000, 128]⟩ : Shape).Idx → EReal)
    (wg : (⟨2, ![128, 128]⟩ : Shape).Idx → EReal) (i : Fin 100000) (c : Fin 128) :
    aggR src dst x wg i c = aggK src dst x wg i c := by
  obtain ⟨r, hr, hD⟩ := dinvK_real dst i
  unfold aggR aggK
  rw [sum_loops_filter dst i (fun e => feat x wg (takeNode (withLoops src e)) c
    * (dinvR dst (takeNode (withLoops src e)) * dinvR dst (takeNode (withLoops dst e))))]
  simp only [withLoops_castAdd, withLoops_natAdd, takeNode_ofNat, dinvR_eq_dinvK]
  have hS : ∑ e ∈ Finset.univ.filter (fun e : Fin 1600000 => (dst e).toInt = (i.val : Int)),
        feat x wg (takeNode (src e)) c * (dinvK dst (takeNode (src e)) * dinvK dst (takeNode (dst e)))
      = ∑ e ∈ Finset.univ.filter (fun e : Fin 1600000 => (dst e).toInt = (i.val : Int)),
        feat x wg (takeNode (src e)) c * dinvK dst (takeNode (src e)) * (r : EReal) := by
    refine Finset.sum_congr rfl fun e he => ?_
    rw [takeNode_of_toInt (Finset.mem_filter.mp he).2, hD, mul_assoc]
  rw [hS, hD, ← sum_mul_coe _ _ hr, zero_eq, zero_add, zero_add,
    EReal.right_distrib_of_nonneg_of_ne_top (EReal.coe_nonneg.mpr hr) (EReal.coe_ne_top r),
    mul_assoc (feat x wg i c)]

end Cert.Gcn

end
-- ==== Proof.lean ====
/-
  A graph-convolution layer with a residual linear stage: the kernel against its reference, at the ideal values.

  The kernel computes the degrees from the edges proper and adds the self loop by hand; it scales the transformed features
  by the inverse-root degree inside its first region, lets the host gather and accumulate the scaled rows, and applies the
  second factor, the bias, the clip, the linear stage and the residual inside its second region. The reference appends one
  self loop per node to the edge list and scales every message by both factors. The two aggregates are two arrangements
  of one sum (`Cert.Gcn.aggR_eq_aggK`): the appended loops contribute exactly the kernel's hand-added term, and the factor
  the kernel applies outside the sum is a nonnegative real, which distributes over any sum of extended reals. Everything
  after the aggregate is the same function on both sides.
-/
import proofs.«107790_j22746146799804_2_alg».proof.Defs
import proofs.«107790_j22746146799804_2_alg».proof.Proof.Gen.Kernel
import proofs.«107790_j22746146799804_2_alg».proof.Proof.Gen.Kernel.Skeleton
import proofs.«107790_j22746146799804_2_alg».proof.Proof.Gen.Kernel.Launch
import proofs.«107790_j22746146799804_2_alg».proof.Proof.Gen.Kernel.Points
import proofs.«107790_j22746146799804_2_alg».proof.Proof.Gen.Kernel.Frame
import proofs.«107790_j22746146799804_2_alg».proof.Proof.Gen.KernelIdeal
import proofs.«107790_j22746146799804_2_alg».proof.Proof.Gen.KernelIdeal.Skeleton
import proofs.«107790_j22746146799804_2_alg».proof.Proof.Gen.KernelIdeal.Launch
import proofs.«107790_j22746146799804_2_alg».proof.Proof.Gen.KernelIdeal.Points
import proofs.«107790_j22746146799804_2_alg».proof.Proof.Gen.KernelIdeal.Frame
import proofs.«107790_j22746146799804_2_alg».proof.Proof.Gen.ReferenceIdeal
import proofs.«107790_j22746146799804_2_alg».proof.Proof.Gen.Pre_finite_inputs
import proofs.«107790_j22746146799804_2_alg».proof.Proof.Gen.ReferenceIdeal.Run
import proofs.«107790_j22746146799804_2_alg».proof.Proof.Gen.ReferenceIdeal.Read
import proofs.«107790_j22746146799804_2_alg».proof.Proof.KernelRun
import proofs.«107790_j22746146799804_2_alg».proof.Proof.HostK
import proofs.«107790_j22746146799804_2_alg».proof.Proof.KernelValue
import proofs.«107790_j22746146799804_2_alg».proof.Proof.Reference
import proofs.«107790_j22746146799804_2_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer of the first arrangement of the aggregate, of the arguments they agree on. -/
theorem algebraic : Cert.algebraic_KernelIdeal_ReferenceIdeal := by
  intro m ρ m' ρ' _ hagree
  refine ⟨fun c => Cert.Gcn.layerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (Cert.Gcn.aggK (Cert.Gcn.srcOf (m ((c.tc : Thread Cert.KernelIdeal.nD Cert.KernelIdeal.τ).loc Cert.KernelIdeal.main_arg1)))
        (Cert.Gcn.dstOf (m ((c.tc : Thread Cert.KernelIdeal.nD Cert.KernelIdeal.τ).loc Cert.KernelIdeal.main_arg1)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))), ?_, ?_⟩
  · refine (θ_run Cert.KernelIdeal.defs _ _).mono (fun r h c => ⟨(h c).1.trans ?_, (h c).2⟩)
      (Cert.KernelIdeal.GcnRun.run_named (F := Ideal) m ρ)
    exact (Cert.KernelIdeal.GcnHost.result_eq m ρ c).trans (Cert.KernelIdeal.GcnValue.result_spec _ _ _ _ _)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v48_eq, Cert.ReferenceIdeal.GcnRef.ref_value, (hagree c).1, (hagree c).2.1,
      (hagree c).2.2.1, (hagree c).2.2.2.1, (hagree c).2.2.2.2]
    exact congrArg (Cert.Gcn.layerOut _ _ _) (funext fun i => funext fun k => Cert.Gcn.aggR_eq_aggK _ _ _ _ i k)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
